-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768x768 .f32) (main_arg5 : FVec F S768 .f32) (main_arg6 : FVec F S768x768 .f32) (main_arg7 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_v33

def fn {F : FTy → Type} [FloatOps F] (main_arg0 : FVec F S4x2048x768 .f32) (main_arg1 : FVec F S4x2048x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S4x2048x768 .f32 := Host.absf main_arg1
  let main_cst_0 : FVec F S_ .f32 := constant S_ .f32 0x7F800000#32
  let main_v5 : FVec F S4x2048x768 .f32 := broadcastInDim S4x2048x768 ![] bcast_S_S4x2048x768 main_cst_0
  let main_v6 : IVec S4x2048x768 1 := cmpf .olt main_v4 main_v5
  let main_c_1 : IVec S_ 1 := constantI S_ 1 1#1
  let main_v7 : IVec S_ 1 := (fun x v => Host.reduce IntOp.andi x v reducesTo_S4x2048x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S4x2048x768 : Shape := ⟨3, ![4, 2048, 768]⟩
abbrev S768x768 : Shape := ⟨2, ![768, 768]⟩
abbrev S768 : Shape := ⟨1, ![768]⟩
abbrev S1x768 : Shape := ⟨2, ![1, 768]⟩
abbrev S1x1024x768 : Shape := ⟨3, ![1, 1024, 768]⟩
abbrev S1x2048x768 : Shape := ⟨3, ![1, 2048, 768]⟩
abbrev S2048x768 : Shape := ⟨2, ![2048, 768]⟩
abbrev S1024x768 : Shape := ⟨2, ![1024, 768]⟩
abbrev S512x768 : Shape := ⟨2, ![512, 768]⟩
abbrev S512x2048 : Shape := ⟨2, ![512, 2048]⟩
abbrev S512 : Shape := ⟨1, ![512]⟩
abbrev S512x1 : Shape := ⟨2, ![512, 1]⟩
abbrev S1x512x768 : Shape := ⟨3, ![1, 512, 768]⟩

abbrev nBuf : Space → Nat
  | .hbm => 15
  | .vmem => 14
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S1x768, .f32⟩
  | .hbm, ⟨12, _⟩ => ⟨S1x768, .f32⟩
  | .hbm, ⟨13, _⟩ => ⟨S1x768, .f32⟩
  | .hbm, ⟨14, _⟩ => ⟨S4x2048x768, .f32⟩
  | .local _ .vmem, ⟨0, _⟩ => ⟨S1x1024x768, .f32⟩
  | .local _ .vmem, ⟨1, _⟩ => ⟨S1x1024x768, .f32⟩
  | .local _ .vmem, ⟨2, _⟩ => ⟨S1x2048x768, .f32⟩
  | .local _ .vmem, ⟨3, _⟩ => ⟨S1x2048x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S768x768, .f32⟩
  | .local _ .vmem, ⟨9, _⟩ => ⟨S1x768, .f32⟩
  | .local _ .vmem, ⟨10, _⟩ => ⟨S1x1024x768, .f32⟩
  | .local _ .vmem, ⟨11, _⟩ => ⟨S1x1024x768, .f32⟩
  | .local _ .vmem, ⟨12, _⟩ => ⟨S2048x768, .f32⟩
  | .local _ .vmem, ⟨13, _⟩ => ⟨S2048x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S768x768_S768x768_1_0 : S768x768.Transposes [1, 0] S768x768
  shapeCasts_S768_S1x768 : S768.ShapeCasts S1x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  slices_S1024x768_o0_0_S512x768 : S1024x768.Slices ![0, 0] S512x768
  broadcasts_S1x768_S512x768 : S1x768.Broadcasts S512x768
  reduces_S512x2048_S512 : S512x2048.Reduces [1] S512
  shapeCasts_S512_S512x1 : S512.ShapeCasts S512x1
  broadcasts_S512x1_S512x2048 : S512x1.Broadcasts S512x2048
  broadcasts_S512x1_S512x768 : S512x1.Broadcasts S512x768
  inb_S1x1024x768_S1x512x768_0_0_0 : ∀ a, (![0, 0, 0] : Fin 3 → Nat) a + S1x512x768.size a ≤ S1x1024x768.size a
  h_S1x512x768 : 0 < S1x512x768.numel
  shapeCasts_S1x512x768_S512x768 : S1x512x768.ShapeCasts S512x768
  shapeCasts_S512x768_S1x512x768 : S512x768.ShapeCasts S1x512x768
  slices_S1024x768_o512_0_S512x768 : S1024x768.Slices ![512, 0] S512x768
  inb_S1x1024x768_S1x512x768_0_512_0 : ∀ a, (![0, 512, 0] : Fin 3 → Nat) a + S1x512x768.size a ≤ S1x1024x768.size a
  dot_S2048x768_S768x768_S2048x768_1_0_0_1_n_n_wf : DotDims.WF S2048x768 S768x768 S2048x768 [1] [0] [0] [1] [] []
  dot_S512x768_S768x768_S512x768_1_0_0_1_n_n_wf : DotDims.WF S512x768 S768x768 S512x768 [1] [0] [0] [1] [] []
  dot_S512x768_S2048x768_S512x2048_1_1_0_0_n_n_wf : DotDims.WF S512x768 S2048x768 S512x2048 [1] [1] [0] [0] [] []
  dot_S512x2048_S2048x768_S512x768_1_0_0_1_n_n_wf : DotDims.WF S512x2048 S2048x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x2048x768.size a
  hwx0_0 : ∀ i : grid0.Coords, EltTy.bits .f32 = 32 ∨ (Rect.block (s := S4x2048x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S4x2048x768.size a
  hwx0_1 : ∀ i : grid0.Coords, EltTy.bits .f32 = 32 ∨ (Rect.block (s := S4x2048x768) S1x2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .f32 = 32 ∨ (Rect.block (s := S768x768) S768x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .f32 = 32 ∨ (Rect.block (s := S768x768) S768x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x768.size a ≤ S4x2048x768.size a
  hwx0_8 : ∀ i : grid0.Coords, EltTy.bits .f32 = 32 ∨ (Rect.block (s := S4x2048x768) S1x1024x768.size (cc0_transform_8 i) (hinb0_8 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S2048x768_S512x2048_1_1_0_0_n_n : DotDims S512x768 S2048x768 S512x2048 where
  lhsContracting := [1]
  rhsContracting := [1]
  lhsNonContracting := [0]
  rhsNonContracting := [0]
  lhsBatch := []
  rhsBatch := []
  wf := dot_S512x768_S2048x768_S512x2048_1_1_0_0_n_n_wf
def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x2048x768 : Shape := ⟨3, ![4, 2048, 768]⟩
abbrev S768x768 : Shape := ⟨2, ![768, 768]⟩
abbrev S768 : Shape := ⟨1, ![768]⟩
abbrev S1x1x768 : Shape := ⟨3, ![1, 1, 768]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S4x2048x768, .f32⟩
  | .hbm, ⟨9, _⟩ => ⟨S1x1x768, .f32⟩
  | .hbm, ⟨10, _⟩ => ⟨S4x2048x768, .f32⟩
  | .hbm, ⟨11, _⟩ => ⟨S4x2048x768, .f32⟩
  | .hbm, ⟨12, _⟩ => ⟨S4x2048x768, .f32⟩
  | .hbm, ⟨13, _⟩ => ⟨S1x1x768, .f32⟩
  | .hbm, ⟨14, _⟩ => ⟨S4x2048x768, .f32⟩
  | .hbm, ⟨15, _⟩ => ⟨S4x2048x768, .f32⟩
  | .hbm, ⟨16, _⟩ => ⟨S4x2048x768, .f32⟩
  | .hbm, ⟨17, _⟩ => ⟨S1x1x768, .f32⟩
  | .hbm, ⟨18, _⟩ => ⟨S4x2048x768, .f32⟩
  | .hbm, ⟨19, _⟩ => ⟨S4x2048x768, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x768, .f32⟩
  | .hbm, ⟨36, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x768_S768x768_S4x2048x768_2_1_01_0_n_n_wf : DotDims.WF S4x2048x768 S768x768 S4x2048x768 [2] [1] [0, 1] [0] [] []
  dot_S4x2048x768_S4x2048x768_S4x2048x2048_2_2_1_1_0_0_wf : DotDims.WF S4x2048x768 S4x2048x768 S4x2048x2048 [2] [2] [1] [1] [0] [0]
  dot_S4x2048x2048_S4x2048x768_S4x2048x768_2_1_1_2_0_0_wf : DotDims.WF S4x2048x2048 S4x2048x768 S4x2048x768 [2] [1] [1] [2] [0] [0]

variable [Facts₀]

def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x2048x768_S4x2048x768_S4x2048x2048_2_2_1_1_0_0 : DotDims S4x2048x768 S4x2048x768 S4x2048x2048 where
  lhsContracting := [2]
  rhsContracting := [2]
  lhsNonContracting := [1]
  rhsNonContracting := [1]
  lhsBatch := [0]
  rhsBatch := [0]
  wf := dot_S4x2048x768_S4x2048x768_S4x2048x2048_2_2_1_1_0_0_wf
def dot_S4x2048x2048_S4x2048x768_S4x2048x768_2_1_1_2_0_0 : DotDims S4x2048x2048 S4x2048x768 S4x2048x768 where
  lhsContracting := [2]
  rhsContracting := [1]
  lhsNonContracting := [1]
  rhsNonContracting := [2]
  lhsBatch := [0]
  rhsBatch := [0]
  wf := dot_S4x2048x2048_S4x2048x768_S4x2048x768_2_1_1_2_0_0_wf

class Facts : Prop extends Facts₀ where

variable [Facts]
-- ==== Proof.K.Setup.lean ====
/-
  The fused attention kernel runs on a 4 × 3 grid: for each batch b, step 0 projects the keys and
  values of that batch into two scratch buffers, and steps 1 and 2 each attend one block of 1024
  query rows against them. This module fixes the names the two cases of the body are stated over:
  the two branch conditions of the body as propositions of the grid point, decided over the twelve
  points (the first holds exactly at the points 0 mod 3, the second exactly at the others), where
  the output window is idle and where it is written back, the staging buffer each window is on at
  a point, the two scratch buffers as memrefs and as views, and the region's invariant read as
  ownership of the two scratch buffers and of the generator register.
-/
import proofs.«109580_g747324309857_cont_9to1_m_273_28_alg».proof.Proof.Gen.Kernel.Frame
import proofs.«109580_g747324309857_cont_9to1_m_273_28_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- The body's first branch is taken: the step coordinate is 0 (the keys and values are projected). -/
abbrev projStep (i : grid0.Coords) : Prop :=
  (Scalar.cmpi .ne (Scalar.extui (Scalar.cmpi .eq (BitVec.ofNat 32 (i 1).val) 0#32)) 0#32) = 1#1
/-- It is taken exactly at the points 0 mod 3. -/
theorem projStep_iff : ∀ t : Fin cfg0.N, projStep (grid0.coords t) ↔ t.val % 3 = 0 :=
  (by decide +kernel : ∀ t : Fin grid0.N, projStep (grid0.coords t) ↔ t.val % 3 = 0)

/-- The body's second branch is taken: the step coordinate is positive (a block of queries attends). -/
abbrev attStep (i : grid0.Coords) : Prop := k0_cond2 i = 1#1
/-- It is taken exactly at the points that are not 0 mod 3. -/
theorem attStep_iff : ∀ t : Fin cfg0.N, attStep (grid0.coords t) ↔ ¬ t.val % 3 = 0 :=
  (by decide +kernel : ∀ t : Fin grid0.N, attStep (grid0.coords t) ↔ ¬ t.val % 3 = 0)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
/-- At a projection step nothing is stored into the output window: it is idle there, -/
theorem idle8_proj : ∀ t : Fin cfg0.N, projStep (grid0.coords t) → cfg0.idle 8 (grid0.coords t) = true := by decide +kernel
/-- and its block is not written back there (the next step has the same block index). -/
theorem noFlush8_proj : ∀ t : Fin cfg0.N, projStep (grid0.coords t) → (cfg0.win 8).flush t = false := by decide +kernel
/-- At an attention step the output window is live. -/
theorem live8_att : ∀ t : Fin cfg0.N, attStep (grid0.coords t) → cfg0.idle 8 (grid0.coords t) = false := by decide +kernel

/-! ## The memrefs the body is called with -/

abbrev ms0 (t : Fin cfg0.N) : Memref sig .tc .vmem S1x1024x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S768x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x768 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S768x768 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x768 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x768 .f32 := win0_8.stage (cfg0.slots t 8)
abbrev hs8 (t : Fin cfg0.N) : (ms8 t).IsWhole := hstage0_8 ((cfg0.slots t 8).cast nbuf0_8)

/-- The scratch buffer of the projected keys, -/
abbrev scK : Memref sig .tc .vmem S2048x768 .f32 := Memref.whole cc0_scratch0
/-- and of the projected values. -/
abbrev scV : Memref sig .tc .vmem S2048x768 .f32 := Memref.whole cc0_scratch1
abbrev viewK : View sig .tc .vmem S2048x768 .f32 := scK.view
abbrev viewV : View sig .tc .vmem S2048x768 .f32 := scV.view
/-- One staging buffer of the output window, through which its contents are stated. -/
abbrev viewO : View sig .tc .vmem S1x1024x768 .f32 := (Memref.whole cc0_stg8_0 : Memref sig .tc .vmem S1x1024x768 .f32).view

/-- The region's plain invariant: the two scratch buffers owned at some contents, and the generator register. -/
theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.Kernel.Body

end
-- ==== Proof.K.RunProj.lean ====
/-
  The body at a projection step (step coordinate 0): it loads the batch's block of y, the transposed key
  and value weights and the two bias rows, stores the projected keys over the whole first scratch buffer and
  the projected values over the whole second one, and skips the attention branch. The run is stated on any
  whole memrefs: the five inputs at named contents and handed back as they were, the two scratch buffers at
  anything and handed back with the pieces the stores wrote.
-/
import proofs.«109580_g747324309857_cont_9to1_m_273_28_alg».proof.Proof.K.Setup

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the projection step leaves in the two scratch buffers, with the body's triple. -/
noncomputable def projRun (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole)
    (hp : projStep i) (ha : ¬attStep i)
    (y : Vec F S1x2048x768 .f32) (wk : Vec F S768x768 .f32) (bk : Vec F S1x768 .f32) (wv : Vec F S768x768 .f32) (bv : Vec F S1x768 .f32) :
    Σ' (LK : List (View.Piece (Elt F) S2048x768 .f32)), { LV : List (View.Piece (Elt F) S2048x768 .f32) //
      ∀ (E : Set ℕ) (K : PUnit → sProp 𝕄),
        iprop(owns (c : Thread nD τ) arg3 fullShare y ∗ owns (c : Thread nD τ) arg6 fullShare wk ∗ owns (c : Thread nD τ) arg7 fullShare bk ∗ owns (c : Thread nD τ) arg8 fullShare wv ∗ owns (c : Thread nD τ) arg9 fullShare bv
            ∗ (∃ d, owns (c : Thread nD τ) arg11 fullShare d) ∗ (∃ d, owns (c : Thread nD τ) arg12 fullShare d)
            ∗ (iprop(owns (c : Thread nD τ) arg3 fullShare y ∗ owns (c : Thread nD τ) arg6 fullShare wk ∗ owns (c : Thread nD τ) arg7 fullShare bk ∗ owns (c : Thread nD τ) arg8 fullShare wv ∗ owns (c : Thread nD τ) arg9 fullShare bv
                ∗ (∃ f, arg11.view.loc (c : Thread nD τ) ↦[arg11.view.set]{fullShare} arg11.view.writes (Elt F) f LK)
                ∗ (∃ f, arg12.view.loc (c : Thread nD τ) ↦[arg12.view.set]{fullShare} arg12.view.writes (Elt F) f LV)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__fused_kernel_eq_skeleton]; unfold cc0__fused_kernel_skel
    simp only [k0_part1_eq_skeleton]
    unfold owns
    iintro ⟨⟨%f3, %hf3, H3⟩, ⟨%f6, %hf6, H6⟩, ⟨%f7, %hf7, H7⟩, ⟨%f8, %hf8, H8⟩, ⟨%f9, %hf9, H9⟩, ⟨%dK, %fK, -, HK⟩, ⟨%dV, %fV, -, HV⟩, Hk⟩
    obtain rfl := harg3.eq_unread hf3; obtain rfl := harg6.eq_unread hf6; obtain rfl := harg7.eq_unread hf7
    obtain rfl := harg8.eq_unread hf8; obtain rfl := harg9.eq_unread hf9
    sl_exec (disch := first | exact hp | exact ha)
    sl_step
    iapply Hk
    isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [HK]; · iexists _; iexact HK
    iexists _; iexact HV

end Cert.Kernel.Body

end
-- ==== Proof.K.RunAtt.lean ====
/-
  The body at an attention step (step coordinate positive): it skips the projection branch, loads the block of
  1024 query rows of x, the transposed query weights and bias, and the two scratch buffers (the keys and values
  the batch's projection step left there), and stores the attended rows into the output window's buffer in two
  halves of 512 rows. The run is stated on any whole memrefs: the three inputs and the two scratch buffers at
  named contents and handed back as they were, the output buffer at anything and handed back with the pieces
  the two stores wrote.
-/
import proofs.«109580_g747324309857_cont_9to1_m_273_28_alg».proof.Proof.K.Setup

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the attention step leaves in the output window's buffer, with the body's triple. -/
noncomputable def attRun (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole)
    (hp : ¬projStep i) (ha : attStep i)
    (x : Vec F S1x1024x768 .f32) (wq : Vec F S768x768 .f32) (bq : Vec F S1x768 .f32) (kk : Vec F S2048x768 .f32) (vv : Vec F S2048x768 .f32) :
    { LO : List (View.Piece (Elt F) S1x1024x768 .f32) //
      ∀ (E : Set ℕ) (K : PUnit → sProp 𝕄),
        iprop(owns (c : Thread nD τ) arg2 fullShare x ∗ owns (c : Thread nD τ) arg4 fullShare wq ∗ owns (c : Thread nD τ) arg5 fullShare bq ∗ owns (c : Thread nD τ) arg11 fullShare kk ∗ owns (c : Thread nD τ) arg12 fullShare vv
            ∗ (∃ d, owns (c : Thread nD τ) arg10 fullShare d)
            ∗ (iprop(owns (c : Thread nD τ) arg2 fullShare x ∗ owns (c : Thread nD τ) arg4 fullShare wq ∗ owns (c : Thread nD τ) arg5 fullShare bq ∗ owns (c : Thread nD τ) arg11 fullShare kk ∗ owns (c : Thread nD τ) arg12 fullShare vv
                ∗ (∃ f, arg10.view.loc (c : Thread nD τ) ↦[arg10.view.set]{fullShare} arg10.view.writes (Elt F) f LO)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f2, %hf2, H2⟩, ⟨%f4, %hf4, H4⟩, ⟨%f5, %hf5, H5⟩, ⟨%fK, %hfK, HK⟩, ⟨%fV, %hfV, HV⟩, ⟨%dO, %fO, -, HO⟩, Hk⟩
    obtain rfl := harg2.eq_unread hf2; obtain rfl := harg4.eq_unread hf4; obtain rfl := harg5.eq_unread hf5
    obtain rfl := harg11.eq_unread hfK; obtain rfl := harg12.eq_unread hfV
    sl_exec (disch := first | exact hp | exact ha)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [HK]
    · iexists _; isplitr; · ipureintro; exact harg11.read_unread _
      iexact HK
    isplitl [HV]
    · iexists _; isplitr; · ipureintro; exact harg12.read_unread _
      iexact HV
    iexists _; iexact HO

end Cert.Kernel.Body

end
-- ==== Proof.K.Body.lean ====
/-
  The frame of the fused attention kernel: what the output window's buffer and the two scratch buffers hold
  after each grid point, the region's invariant, the pipeline's proof data, the body obligation and the run.

  After a projection step the scratch buffers hold what that step's two stores wrote (the projected keys and
  values of the batch) and the output buffer is untouched; after an attention step the scratch buffers still
  hold what the point before left, and the output buffer holds the two half-blocks that step stored. The
  invariant carries the two scratch buffers at those contents from each point to the next; before the first
  point, and after the last, it is the plain one (the scratch buffers at anything).
-/
import proofs.«109580_g747324309857_cont_9to1_m_273_28_alg».proof.Proof.K.RunProj
import proofs.«109580_g747324309857_cont_9to1_m_273_28_alg».proof.Proof.K.RunAtt

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one step leaves -/

/-- The two stores of a projection step cover the keys' scratch buffer, -/
theorem coverK (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : projStep i) (ha : ¬attStep i)
    (y : Vec F S1x2048x768 .f32) (wk : Vec F S768x768 .f32) (bk : Vec F S1x768 .f32) (wv : Vec F S768x768 .f32) (bv : Vec F S1x768 .f32) (j : S2048x768.Idx) :
    ∃ pc ∈ (projRun c i arg2 harg2 arg3 harg3 arg4 harg4 arg5 harg5 arg6 harg6 arg7 harg7 arg8 harg8 arg9 harg9 arg10 harg10 arg11 harg11 arg12 harg12 hp ha y wk bk wv bv).1, j ∈ pc.1.set :=
  View.cover_of_tiledL (projRun c i arg2 harg2 arg3 harg3 arg4 harg4 arg5 harg5 arg6 harg6 arg7 harg7 arg8 harg8 arg9 harg9 arg10 harg10 arg11 harg11 arg12 harg12 hp ha y wk bk wv bv).1 S2048x768.size (by sl_kernel_rfl) j
/-- and the values' scratch buffer. -/
theorem coverV (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : projStep i) (ha : ¬attStep i)
    (y : Vec F S1x2048x768 .f32) (wk : Vec F S768x768 .f32) (bk : Vec F S1x768 .f32) (wv : Vec F S768x768 .f32) (bv : Vec F S1x768 .f32) (j : S2048x768.Idx) :
    ∃ pc ∈ (projRun c i arg2 harg2 arg3 harg3 arg4 harg4 arg5 harg5 arg6 harg6 arg7 harg7 arg8 harg8 arg9 harg9 arg10 harg10 arg11 harg11 arg12 harg12 hp ha y wk bk wv bv).2.1, j ∈ pc.1.set :=
  View.cover_of_tiledL (projRun c i arg2 harg2 arg3 harg3 arg4 harg4 arg5 harg5 arg6 harg6 arg7 harg7 arg8 harg8 arg9 harg9 arg10 harg10 arg11 harg11 arg12 harg12 hp ha y wk bk wv bv).2.1 S2048x768.size (by sl_kernel_rfl) j
/-- The two half-block stores of an attention step cover the output window's buffer. -/
theorem coverO (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : ¬projStep i) (ha : attStep i)
    (x : Vec F S1x1024x768 .f32) (wq : Vec F S768x768 .f32) (bq : Vec F S1x768 .f32) (kk : Vec F S2048x768 .f32) (vv : Vec F S2048x768 .f32) (j : S1x1024x768.Idx) :
    ∃ pc ∈ (attRun c i arg2 harg2 arg3 harg3 arg4 harg4 arg5 harg5 arg6 harg6 arg7 harg7 arg8 harg8 arg9 harg9 arg10 harg10 arg11 harg11 arg12 harg12 hp ha x wq bq kk vv).1, j ∈ pc.1.set :=
  View.cover_of_tiledL (attRun c i arg2 harg2 arg3 harg3 arg4 harg4 arg5 harg5 arg6 harg6 arg7 harg7 arg8 harg8 arg9 harg9 arg10 harg10 arg11 harg11 arg12 harg12 hp ha x wq bq kk vv).1 S1x512x768.size (by sl_kernel_rfl) j

/-- The contents of the output buffer and of the two scratch buffers. -/
abbrev Held (F : FTy → Type) [FloatOps F] : Type := Vec F S1x1024x768 .f32 × Vec F S2048x768 .f32 × Vec F S2048x768 .f32

/-- What a projection step at point `t` leaves: the output buffer untouched (a placeholder nothing consults),
    the scratch buffers at the step's stores read back. -/
def projLeaves (c : Dev nD) (t : Fin cfg0.N) (h : t.val % 3 = 0) : Held F :=
  (viewO.read (Elt F) viewO.junk,
   viewK.read (Elt F) (viewK.writes (Elt F) viewK.junk (projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h) (fun ha => (attStep_iff t).mp ha h) (iblk m c 1 t) (iblk m c 4 t) (iblk m c 5 t) (iblk m c 6 t) (iblk m c 7 t)).1),
   viewV.read (Elt F) (viewV.writes (Elt F) viewV.junk (projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h) (fun ha => (attStep_iff t).mp ha h) (iblk m c 1 t) (iblk m c 4 t) (iblk m c 5 t) (iblk m c 6 t) (iblk m c 7 t)).2.1))

/-- What an attention step at point `t` leaves, the scratch buffers holding `kv` before it: the output buffer at
    the step's two stores read back, the scratch buffers as they were. -/
def attLeaves (c : Dev nD) (t : Fin cfg0.N) (h : ¬ t.val % 3 = 0) (kv : Vec F S2048x768 .f32 × Vec F S2048x768 .f32) : Held F :=
  (viewO.read (Elt F) (viewO.writes (Elt F) viewO.junk (attRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun hp => h ((projStep_iff t).mp hp)) ((attStep_iff t).mpr h) (iblk m c 0 t) (iblk m c 2 t) (iblk m c 3 t) kv.1 kv.2).1),
   kv.1, kv.2)

/-- The contents after the body at position `n`, by recursion on the position. -/
def heldAt (c : Dev nD) : (n : ℕ) → n < cfg0.N → Held F
  | 0, hn => projLeaves m c ⟨0, hn⟩ (Nat.zero_mod _)
  | n + 1, hn =>
    if h : (n + 1) % 3 = 0 then projLeaves m c ⟨n + 1, hn⟩ h
    else attLeaves m c ⟨n + 1, hn⟩ h (heldAt c n (Nat.lt_of_succ_lt hn)).2

theorem heldAt_proj (c : Dev nD) (t : Fin cfg0.N) (h : t.val % 3 = 0) :
    heldAt m c t.val t.isLt = projLeaves m c t h := by
  obtain ⟨n, hn⟩ := t
  cases n with
  | zero => rfl
  | succ n => exact dif_pos h

theorem heldAt_att (c : Dev nD) (t : Fin cfg0.N) (h : ¬ t.val % 3 = 0) :
    heldAt m c t.val t.isLt = attLeaves m c t h (heldAt m c (t.val - 1) (Nat.lt_of_le_of_lt (Nat.sub_le _ _) t.isLt)).2 := by
  obtain ⟨n, hn⟩ := t
  cases n with
  | zero => exact absurd (Nat.zero_mod _) h
  | succ n => exact dif_neg h

/-! ## The invariant -/

/-- Before position `n`: the plain invariant before the first point; afterwards the two scratch buffers at what
    the point before left, and the generator register at some state. -/
def PhiS (c : Dev nD) : (n : ℕ) → n ≤ cfg0.N → sProp 𝕄
  | 0, _ => Pipeline.ΦA spec0 c
  | n + 1, hn => iprop(iprop(owns (c : Thread nD τ) scK fullShare ((heldAt m c n hn).2.1) ∗ owns (c : Thread nD τ) scV fullShare ((heldAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare ((heldAt m c n hn).2.1) ∗ owns (c : Thread nD τ) scV fullShare ((heldAt m c n hn).2.2)) ∗ (∃ r, prngReg c r)) := rfl

theorem PhiS_pos (c : Dev nD) (n : ℕ) (h : n ≤ cfg0.N) (hz : n ≠ 0) :
    PhiS m c n h = iprop(iprop(owns (c : Thread nD τ) scK fullShare ((heldAt m c (n - 1) (by omega)).2.1) ∗ owns (c : Thread nD τ) scV fullShare ((heldAt m c (n - 1) (by omega)).2.2)) ∗ (∃ r, prngReg c r)) := by
  cases n with
  | zero => exact absurd rfl hz
  | succ n => rfl

/-! ## The proof data -/

/-- The arrays as the region finds them; after the body each input's buffer at its block and the output's at
    what the point leaves; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (heldAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (heldAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: each input's buffer holds its block; the point is a projection step or an attention
    step; the invariant hands the body the scratch buffers (at anything at the first point, at what the point
    before left afterwards) and takes them back at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  by_cases h0 : t.val % 3 = 0
  · rw [Dat.leavesExact_idle (dats m 0 c) 8 t (idle8_proj t ((projStep_iff t).mpr h0)) (noFlush8_proj t ((projStep_iff t).mpr h0))]
    rw [heldAt_proj m c t h0]
    unfold projLeaves; (try dsimp only)
    by_cases hz : t.val = 0
    · rw [PhiS_castSucc m c t, PhiS_zero m c _ _ hz, PhiA_eq]
      iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h0) (fun ha => (attStep_iff t).mp ha h0) (iblk m c 1 t) (iblk m c 4 t) (iblk m c 5 t) (iblk m c 6 t) (iblk m c 7 t)).2.2 Set.univ _)
      isplitl [H1]; · iexact H1
      isplitl [H4]; · iexact H4
      isplitl [H5]; · iexact H5
      isplitl [H6]; · iexact H6
      isplitl [H7]; · iexact H7
      isplitl [HK]; · iexact HK
      isplitl [HV]; · iexact HV
      iintro ⟨H1, H4, H5, H6, H7, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverK c _ _ _ _ _ _ _ _ _ _ _ _ _ _ _ _ _ _ _ _ _ _ _ _ _ _ _ _ _ _)
          · unfold owns; iexists _; isplitr
            swap; · iexact HV
            ipureintro; exact View.read_writes_of_cover _ _ _ _ _ (coverV c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h0) (fun ha => (attStep_iff t).mp ha h0) (iblk m c 1 t) (iblk m c 4 t) (iblk m c 5 t) (iblk m c 6 t) (iblk m c 7 t)).2.2 Set.univ _)
      isplitl [H1]; · iexact H1
      isplitl [H4]; · iexact H4
      isplitl [H5]; · iexact H5
      isplitl [H6]; · iexact H6
      isplitl [H7]; · iexact H7
      isplitl [HK]; · iexists _; iexact HK
      isplitl [HV]; · iexists _; iexact HV
      iintro ⟨H1, H4, H5, H6, H7, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverK c _ _ _ _ _ _ _ _ _ _ _ _ _ _ _ _ _ _ _ _ _ _ _ _ _ _ _ _ _ _)
          · unfold owns; iexists _; isplitr
            swap; · iexact HV
            ipureintro; exact View.read_writes_of_cover _ _ _ _ _ (coverV c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · rw [show (dats m 0 c).leavesExact 8 t = owns (c : Thread nD τ) (ms8 t) fullShare ((dats m 0 c).after 8 t) from by
      unfold Dat.leavesExact; rw [live8_att t ((attStep_iff t).mpr h0)], after8]
    rw [heldAt_att m c t h0]
    unfold attLeaves; (try dsimp only)
    have hz : t.val ≠ 0 := fun hz => h0 (by rw [hz])
    rw [PhiS_castSucc m c t, PhiS_pos m c _ _ hz]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((attRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun hp => h0 ((projStep_iff t).mp hp)) ((attStep_iff t).mpr h0) (iblk m c 0 t) (iblk m c 2 t) (iblk m c 3 t) _ _).2 Set.univ _)
    isplitl [H0]; · iexact H0
    isplitl [H2]; · iexact H2
    isplitl [H3]; · iexact H3
    isplitl [HK]; · iexact HK
    isplitl [HV]; · iexact HV
    isplitl [H8]; · iexists _; iexact H8
    iintro ⟨H0, H2, H3, HK, HV, ⟨%eO, H8⟩⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverO c _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the plain one back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 12 := N_0; omega), PhiA_eq]
  iintro ⟨⟨HK, HV⟩, Hg⟩
  isplitl [HK HV]
  · isplitl [HK]; · iexists _; iexact HK
    iexists _; iexact HV
  iexact Hg

/-! ## The run and the frame -/

set_option backward.isDefEq.respectTransparency.types false in
/-- Every weakly fair execution of @main terminates, and every final state has every array of the pipeline at
    what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KI.Setup.lean ====
/-
  The fused attention kernel runs on a 4 × 3 grid: for each batch b, step 0 projects the keys and
  values of that batch into two scratch buffers, and steps 1 and 2 each attend one block of 1024
  query rows against them. This module fixes the names the two cases of the body are stated over:
  the two branch conditions of the body as propositions of the grid point, decided over the twelve
  points (the first holds exactly at the points 0 mod 3, the second exactly at the others), where
  the output window is idle and where it is written back, the staging buffer each window is on at
  a point, the two scratch buffers as memrefs and as views, and the region's invariant read as
  ownership of the two scratch buffers and of the generator register.
-/
import proofs.«109580_g747324309857_cont_9to1_m_273_28_alg».proof.Proof.Gen.KernelIdeal.Frame
import proofs.«109580_g747324309857_cont_9to1_m_273_28_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- The body's first branch is taken: the step coordinate is 0 (the keys and values are projected). -/
abbrev projStep (i : grid0.Coords) : Prop :=
  (Scalar.cmpi .ne (Scalar.extui (Scalar.cmpi .eq (BitVec.ofNat 32 (i 1).val) 0#32)) 0#32) = 1#1
/-- It is taken exactly at the points 0 mod 3. -/
theorem projStep_iff : ∀ t : Fin cfg0.N, projStep (grid0.coords t) ↔ t.val % 3 = 0 :=
  (by decide +kernel : ∀ t : Fin grid0.N, projStep (grid0.coords t) ↔ t.val % 3 = 0)

/-- The body's second branch is taken: the step coordinate is positive (a block of queries attends). -/
abbrev attStep (i : grid0.Coords) : Prop := k0_cond2 i = 1#1
/-- It is taken exactly at the points that are not 0 mod 3. -/
theorem attStep_iff : ∀ t : Fin cfg0.N, attStep (grid0.coords t) ↔ ¬ t.val % 3 = 0 :=
  (by decide +kernel : ∀ t : Fin grid0.N, attStep (grid0.coords t) ↔ ¬ t.val % 3 = 0)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
/-- At a projection step nothing is stored into the output window: it is idle there, -/
theorem idle8_proj : ∀ t : Fin cfg0.N, projStep (grid0.coords t) → cfg0.idle 8 (grid0.coords t) = true := by decide +kernel
/-- and its block is not written back there (the next step has the same block index). -/
theorem noFlush8_proj : ∀ t : Fin cfg0.N, projStep (grid0.coords t) → (cfg0.win 8).flush t = false := by decide +kernel
/-- At an attention step the output window is live. -/
theorem live8_att : ∀ t : Fin cfg0.N, attStep (grid0.coords t) → cfg0.idle 8 (grid0.coords t) = false := by decide +kernel

/-! ## The memrefs the body is called with -/

abbrev ms0 (t : Fin cfg0.N) : Memref sig .tc .vmem S1x1024x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S768x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x768 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S768x768 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x768 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x768 .f32 := win0_8.stage (cfg0.slots t 8)
abbrev hs8 (t : Fin cfg0.N) : (ms8 t).IsWhole := hstage0_8 ((cfg0.slots t 8).cast nbuf0_8)

/-- The scratch buffer of the projected keys, -/
abbrev scK : Memref sig .tc .vmem S2048x768 .f32 := Memref.whole cc0_scratch0
/-- and of the projected values. -/
abbrev scV : Memref sig .tc .vmem S2048x768 .f32 := Memref.whole cc0_scratch1
abbrev viewK : View sig .tc .vmem S2048x768 .f32 := scK.view
abbrev viewV : View sig .tc .vmem S2048x768 .f32 := scV.view
/-- One staging buffer of the output window, through which its contents are stated. -/
abbrev viewO : View sig .tc .vmem S1x1024x768 .f32 := (Memref.whole cc0_stg8_0 : Memref sig .tc .vmem S1x1024x768 .f32).view

/-- The region's plain invariant: the two scratch buffers owned at some contents, and the generator register. -/
theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.KernelIdeal.Body

end
-- ==== Proof.KI.RunProj.lean ====
/-
  The body at a projection step (step coordinate 0): it loads the batch's block of y, the transposed key
  and value weights and the two bias rows, stores the projected keys over the whole first scratch buffer and
  the projected values over the whole second one, and skips the attention branch. The run is stated on any
  whole memrefs: the five inputs at named contents and handed back as they were, the two scratch buffers at
  anything and handed back with the pieces the stores wrote.
-/
import proofs.«109580_g747324309857_cont_9to1_m_273_28_alg».proof.Proof.KI.Setup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the projection step leaves in the two scratch buffers, with the body's triple. -/
noncomputable def projRun (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole)
    (hp : projStep i) (ha : ¬attStep i)
    (y : Vec F S1x2048x768 .f32) (wk : Vec F S768x768 .f32) (bk : Vec F S1x768 .f32) (wv : Vec F S768x768 .f32) (bv : Vec F S1x768 .f32) :
    Σ' (LK : List (View.Piece (Elt F) S2048x768 .f32)), { LV : List (View.Piece (Elt F) S2048x768 .f32) //
      ∀ (E : Set ℕ) (K : PUnit → sProp 𝕄),
        iprop(owns (c : Thread nD τ) arg3 fullShare y ∗ owns (c : Thread nD τ) arg6 fullShare wk ∗ owns (c : Thread nD τ) arg7 fullShare bk ∗ owns (c : Thread nD τ) arg8 fullShare wv ∗ owns (c : Thread nD τ) arg9 fullShare bv
            ∗ (∃ d, owns (c : Thread nD τ) arg11 fullShare d) ∗ (∃ d, owns (c : Thread nD τ) arg12 fullShare d)
            ∗ (iprop(owns (c : Thread nD τ) arg3 fullShare y ∗ owns (c : Thread nD τ) arg6 fullShare wk ∗ owns (c : Thread nD τ) arg7 fullShare bk ∗ owns (c : Thread nD τ) arg8 fullShare wv ∗ owns (c : Thread nD τ) arg9 fullShare bv
                ∗ (∃ f, arg11.view.loc (c : Thread nD τ) ↦[arg11.view.set]{fullShare} arg11.view.writes (Elt F) f LK)
                ∗ (∃ f, arg12.view.loc (c : Thread nD τ) ↦[arg12.view.set]{fullShare} arg12.view.writes (Elt F) f LV)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__fused_kernel_eq_skeleton]; unfold cc0__fused_kernel_skel
    simp only [k0_part1_eq_skeleton]
    unfold owns
    iintro ⟨⟨%f3, %hf3, H3⟩, ⟨%f6, %hf6, H6⟩, ⟨%f7, %hf7, H7⟩, ⟨%f8, %hf8, H8⟩, ⟨%f9, %hf9, H9⟩, ⟨%dK, %fK, -, HK⟩, ⟨%dV, %fV, -, HV⟩, Hk⟩
    obtain rfl := harg3.eq_unread hf3; obtain rfl := harg6.eq_unread hf6; obtain rfl := harg7.eq_unread hf7
    obtain rfl := harg8.eq_unread hf8; obtain rfl := harg9.eq_unread hf9
    sl_exec (disch := first | exact hp | exact ha)
    sl_step
    iapply Hk
    isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [HK]; · iexists _; iexact HK
    iexists _; iexact HV

end Cert.KernelIdeal.Body

end
-- ==== Proof.KI.RunAtt.lean ====
/-
  The body at an attention step (step coordinate positive): it skips the projection branch, loads the block of
  1024 query rows of x, the transposed query weights and bias, and the two scratch buffers (the keys and values
  the batch's projection step left there), and stores the attended rows into the output window's buffer in two
  halves of 512 rows. The run is stated on any whole memrefs: the three inputs and the two scratch buffers at
  named contents and handed back as they were, the output buffer at anything and handed back with the pieces
  the two stores wrote.
-/
import proofs.«109580_g747324309857_cont_9to1_m_273_28_alg».proof.Proof.KI.Setup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the attention step leaves in the output window's buffer, with the body's triple. -/
noncomputable def attRun (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole)
    (hp : ¬projStep i) (ha : attStep i)
    (x : Vec F S1x1024x768 .f32) (wq : Vec F S768x768 .f32) (bq : Vec F S1x768 .f32) (kk : Vec F S2048x768 .f32) (vv : Vec F S2048x768 .f32) :
    { LO : List (View.Piece (Elt F) S1x1024x768 .f32) //
      ∀ (E : Set ℕ) (K : PUnit → sProp 𝕄),
        iprop(owns (c : Thread nD τ) arg2 fullShare x ∗ owns (c : Thread nD τ) arg4 fullShare wq ∗ owns (c : Thread nD τ) arg5 fullShare bq ∗ owns (c : Thread nD τ) arg11 fullShare kk ∗ owns (c : Thread nD τ) arg12 fullShare vv
            ∗ (∃ d, owns (c : Thread nD τ) arg10 fullShare d)
            ∗ (iprop(owns (c : Thread nD τ) arg2 fullShare x ∗ owns (c : Thread nD τ) arg4 fullShare wq ∗ owns (c : Thread nD τ) arg5 fullShare bq ∗ owns (c : Thread nD τ) arg11 fullShare kk ∗ owns (c : Thread nD τ) arg12 fullShare vv
                ∗ (∃ f, arg10.view.loc (c : Thread nD τ) ↦[arg10.view.set]{fullShare} arg10.view.writes (Elt F) f LO)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    simp only [k0_part1_eq_skeleton]
    unfold owns
    iintro ⟨⟨%f2, %hf2, H2⟩, ⟨%f4, %hf4, H4⟩, ⟨%f5, %hf5, H5⟩, ⟨%fK, %hfK, HK⟩, ⟨%fV, %hfV, HV⟩, ⟨%dO, %fO, -, HO⟩, Hk⟩
    obtain rfl := harg2.eq_unread hf2; obtain rfl := harg4.eq_unread hf4; obtain rfl := harg5.eq_unread hf5
    obtain rfl := harg11.eq_unread hfK; obtain rfl := harg12.eq_unread hfV
    sl_exec (disch := first | exact hp | exact ha)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [HK]
    · iexists _; isplitr; · ipureintro; exact harg11.read_unread _
      iexact HK
    isplitl [HV]
    · iexists _; isplitr; · ipureintro; exact harg12.read_unread _
      iexact HV
    iexists _; iexact HO

end Cert.KernelIdeal.Body

end
-- ==== Proof.KI.Body.lean ====
/-
  The frame of the fused attention kernel: what the output window's buffer and the two scratch buffers hold
  after each grid point, the region's invariant, the pipeline's proof data, the body obligation and the run.

  After a projection step the scratch buffers hold what that step's two stores wrote (the projected keys and
  values of the batch) and the output buffer is untouched; after an attention step the scratch buffers still
  hold what the point before left, and the output buffer holds the two half-blocks that step stored. The
  invariant carries the two scratch buffers at those contents from each point to the next; before the first
  point, and after the last, it is the plain one (the scratch buffers at anything).
-/
import proofs.«109580_g747324309857_cont_9to1_m_273_28_alg».proof.Proof.KI.RunProj
import proofs.«109580_g747324309857_cont_9to1_m_273_28_alg».proof.Proof.KI.RunAtt

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one step leaves -/

/-- The two stores of a projection step cover the keys' scratch buffer, -/
theorem coverK (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : projStep i) (ha : ¬attStep i)
    (y : Vec F S1x2048x768 .f32) (wk : Vec F S768x768 .f32) (bk : Vec F S1x768 .f32) (wv : Vec F S768x768 .f32) (bv : Vec F S1x768 .f32) (j : S2048x768.Idx) :
    ∃ pc ∈ (projRun c i arg2 harg2 arg3 harg3 arg4 harg4 arg5 harg5 arg6 harg6 arg7 harg7 arg8 harg8 arg9 harg9 arg10 harg10 arg11 harg11 arg12 harg12 hp ha y wk bk wv bv).1, j ∈ pc.1.set :=
  View.cover_of_tiledL (projRun c i arg2 harg2 arg3 harg3 arg4 harg4 arg5 harg5 arg6 harg6 arg7 harg7 arg8 harg8 arg9 harg9 arg10 harg10 arg11 harg11 arg12 harg12 hp ha y wk bk wv bv).1 S2048x768.size (by sl_kernel_rfl) j
/-- and the values' scratch buffer. -/
theorem coverV (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : projStep i) (ha : ¬attStep i)
    (y : Vec F S1x2048x768 .f32) (wk : Vec F S768x768 .f32) (bk : Vec F S1x768 .f32) (wv : Vec F S768x768 .f32) (bv : Vec F S1x768 .f32) (j : S2048x768.Idx) :
    ∃ pc ∈ (projRun c i arg2 harg2 arg3 harg3 arg4 harg4 arg5 harg5 arg6 harg6 arg7 harg7 arg8 harg8 arg9 harg9 arg10 harg10 arg11 harg11 arg12 harg12 hp ha y wk bk wv bv).2.1, j ∈ pc.1.set :=
  View.cover_of_tiledL (projRun c i arg2 harg2 arg3 harg3 arg4 harg4 arg5 harg5 arg6 harg6 arg7 harg7 arg8 harg8 arg9 harg9 arg10 harg10 arg11 harg11 arg12 harg12 hp ha y wk bk wv bv).2.1 S2048x768.size (by sl_kernel_rfl) j
/-- The two half-block stores of an attention step cover the output window's buffer. -/
theorem coverO (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : ¬projStep i) (ha : attStep i)
    (x : Vec F S1x1024x768 .f32) (wq : Vec F S768x768 .f32) (bq : Vec F S1x768 .f32) (kk : Vec F S2048x768 .f32) (vv : Vec F S2048x768 .f32) (j : S1x1024x768.Idx) :
    ∃ pc ∈ (attRun c i arg2 harg2 arg3 harg3 arg4 harg4 arg5 harg5 arg6 harg6 arg7 harg7 arg8 harg8 arg9 harg9 arg10 harg10 arg11 harg11 arg12 harg12 hp ha x wq bq kk vv).1, j ∈ pc.1.set :=
  View.cover_of_tiledL (attRun c i arg2 harg2 arg3 harg3 arg4 harg4 arg5 harg5 arg6 harg6 arg7 harg7 arg8 harg8 arg9 harg9 arg10 harg10 arg11 harg11 arg12 harg12 hp ha x wq bq kk vv).1 S1x512x768.size (by sl_kernel_rfl) j

/-- The contents of the output buffer and of the two scratch buffers. -/
abbrev Held (F : FTy → Type) [FloatOps F] : Type := Vec F S1x1024x768 .f32 × Vec F S2048x768 .f32 × Vec F S2048x768 .f32

/-- What a projection step at point `t` leaves: the output buffer untouched (a placeholder nothing consults),
    the scratch buffers at the step's stores read back. -/
def projLeaves (c : Dev nD) (t : Fin cfg0.N) (h : t.val % 3 = 0) : Held F :=
  (viewO.read (Elt F) viewO.junk,
   viewK.read (Elt F) (viewK.writes (Elt F) viewK.junk (projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h) (fun ha => (attStep_iff t).mp ha h) (iblk m c 1 t) (iblk m c 4 t) (iblk m c 5 t) (iblk m c 6 t) (iblk m c 7 t)).1),
   viewV.read (Elt F) (viewV.writes (Elt F) viewV.junk (projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h) (fun ha => (attStep_iff t).mp ha h) (iblk m c 1 t) (iblk m c 4 t) (iblk m c 5 t) (iblk m c 6 t) (iblk m c 7 t)).2.1))

/-- What an attention step at point `t` leaves, the scratch buffers holding `kv` before it: the output buffer at
    the step's two stores read back, the scratch buffers as they were. -/
def attLeaves (c : Dev nD) (t : Fin cfg0.N) (h : ¬ t.val % 3 = 0) (kv : Vec F S2048x768 .f32 × Vec F S2048x768 .f32) : Held F :=
  (viewO.read (Elt F) (viewO.writes (Elt F) viewO.junk (attRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun hp => h ((projStep_iff t).mp hp)) ((attStep_iff t).mpr h) (iblk m c 0 t) (iblk m c 2 t) (iblk m c 3 t) kv.1 kv.2).1),
   kv.1, kv.2)

/-- The contents after the body at position `n`, by recursion on the position. -/
def heldAt (c : Dev nD) : (n : ℕ) → n < cfg0.N → Held F
  | 0, hn => projLeaves m c ⟨0, hn⟩ (Nat.zero_mod _)
  | n + 1, hn =>
    if h : (n + 1) % 3 = 0 then projLeaves m c ⟨n + 1, hn⟩ h
    else attLeaves m c ⟨n + 1, hn⟩ h (heldAt c n (Nat.lt_of_succ_lt hn)).2

theorem heldAt_proj (c : Dev nD) (t : Fin cfg0.N) (h : t.val % 3 = 0) :
    heldAt m c t.val t.isLt = projLeaves m c t h := by
  obtain ⟨n, hn⟩ := t
  cases n with
  | zero => rfl
  | succ n => exact dif_pos h

theorem heldAt_att (c : Dev nD) (t : Fin cfg0.N) (h : ¬ t.val % 3 = 0) :
    heldAt m c t.val t.isLt = attLeaves m c t h (heldAt m c (t.val - 1) (Nat.lt_of_le_of_lt (Nat.sub_le _ _) t.isLt)).2 := by
  obtain ⟨n, hn⟩ := t
  cases n with
  | zero => exact absurd (Nat.zero_mod _) h
  | succ n => exact dif_neg h

/-! ## The invariant -/

/-- Before position `n`: the plain invariant before the first point; afterwards the two scratch buffers at what
    the point before left, and the generator register at some state. -/
def PhiS (c : Dev nD) : (n : ℕ) → n ≤ cfg0.N → sProp 𝕄
  | 0, _ => Pipeline.ΦA spec0 c
  | n + 1, hn => iprop(iprop(owns (c : Thread nD τ) scK fullShare ((heldAt m c n hn).2.1) ∗ owns (c : Thread nD τ) scV fullShare ((heldAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare ((heldAt m c n hn).2.1) ∗ owns (c : Thread nD τ) scV fullShare ((heldAt m c n hn).2.2)) ∗ (∃ r, prngReg c r)) := rfl

theorem PhiS_pos (c : Dev nD) (n : ℕ) (h : n ≤ cfg0.N) (hz : n ≠ 0) :
    PhiS m c n h = iprop(iprop(owns (c : Thread nD τ) scK fullShare ((heldAt m c (n - 1) (by omega)).2.1) ∗ owns (c : Thread nD τ) scV fullShare ((heldAt m c (n - 1) (by omega)).2.2)) ∗ (∃ r, prngReg c r)) := by
  cases n with
  | zero => exact absurd rfl hz
  | succ n => rfl

/-! ## The proof data -/

/-- The arrays as the region finds them; after the body each input's buffer at its block and the output's at
    what the point leaves; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (heldAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (heldAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: each input's buffer holds its block; the point is a projection step or an attention
    step; the invariant hands the body the scratch buffers (at anything at the first point, at what the point
    before left afterwards) and takes them back at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  by_cases h0 : t.val % 3 = 0
  · rw [Dat.leavesExact_idle (dats m 0 c) 8 t (idle8_proj t ((projStep_iff t).mpr h0)) (noFlush8_proj t ((projStep_iff t).mpr h0))]
    rw [heldAt_proj m c t h0]
    unfold projLeaves; (try dsimp only)
    by_cases hz : t.val = 0
    · rw [PhiS_castSucc m c t, PhiS_zero m c _ _ hz, PhiA_eq]
      iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h0) (fun ha => (attStep_iff t).mp ha h0) (iblk m c 1 t) (iblk m c 4 t) (iblk m c 5 t) (iblk m c 6 t) (iblk m c 7 t)).2.2 Set.univ _)
      isplitl [H1]; · iexact H1
      isplitl [H4]; · iexact H4
      isplitl [H5]; · iexact H5
      isplitl [H6]; · iexact H6
      isplitl [H7]; · iexact H7
      isplitl [HK]; · iexact HK
      isplitl [HV]; · iexact HV
      iintro ⟨H1, H4, H5, H6, H7, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverK c _ _ _ _ _ _ _ _ _ _ _ _ _ _ _ _ _ _ _ _ _ _ _ _ _ _ _ _ _ _)
          · unfold owns; iexists _; isplitr
            swap; · iexact HV
            ipureintro; exact View.read_writes_of_cover _ _ _ _ _ (coverV c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((projRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((projStep_iff t).mpr h0) (fun ha => (attStep_iff t).mp ha h0) (iblk m c 1 t) (iblk m c 4 t) (iblk m c 5 t) (iblk m c 6 t) (iblk m c 7 t)).2.2 Set.univ _)
      isplitl [H1]; · iexact H1
      isplitl [H4]; · iexact H4
      isplitl [H5]; · iexact H5
      isplitl [H6]; · iexact H6
      isplitl [H7]; · iexact H7
      isplitl [HK]; · iexists _; iexact HK
      isplitl [HV]; · iexists _; iexact HV
      iintro ⟨H1, H4, H5, H6, H7, ⟨%eK, HK⟩, ⟨%eV, HV⟩⟩
      isplitl [HK HV Hg]
      · isplitl [HK HV]
        · isplitl [HK]
          · unfold owns; iexists _; isplitr
            swap; · iexact HK
            ipureintro; exact View.read_writes_of_cover _ _ _ _ _ (coverK c _ _ _ _ _ _ _ _ _ _ _ _ _ _ _ _ _ _ _ _ _ _ _ _ _ _ _ _ _ _)
          · unfold owns; iexists _; isplitr
            swap; · iexact HV
            ipureintro; exact View.read_writes_of_cover _ _ _ _ _ (coverV c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · rw [show (dats m 0 c).leavesExact 8 t = owns (c : Thread nD τ) (ms8 t) fullShare ((dats m 0 c).after 8 t) from by
      unfold Dat.leavesExact; rw [live8_att t ((attStep_iff t).mpr h0)], after8]
    rw [heldAt_att m c t h0]
    unfold attLeaves; (try dsimp only)
    have hz : t.val ≠ 0 := fun hz => h0 (by rw [hz])
    rw [PhiS_castSucc m c t, PhiS_pos m c _ _ hz]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((attRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun hp => h0 ((projStep_iff t).mp hp)) ((attStep_iff t).mpr h0) (iblk m c 0 t) (iblk m c 2 t) (iblk m c 3 t) _ _).2 Set.univ _)
    isplitl [H0]; · iexact H0
    isplitl [H2]; · iexact H2
    isplitl [H3]; · iexact H3
    isplitl [HK]; · iexact HK
    isplitl [HV]; · iexact HV
    isplitl [H8]; · iexists _; iexact H8
    iintro ⟨H0, H2, H3, HK, HV, ⟨%eO, H8⟩⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverO c _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the plain one back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 12 := N_0; omega), PhiA_eq]
  iintro ⟨⟨HK, HV⟩, Hg⟩
  isplitl [HK HV]
  · isplitl [HK]; · iexists _; iexact HK
    iexists _; iexact HV
  iexact Hg

/-! ## The run and the frame -/

set_option backward.isDefEq.respectTransparency.types false in
/-- Every weakly fair execution of @main terminates, and every final state has every array of the pipeline at
    what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.AttnReads.lean ====
/-
  What the body's inputs are, in terms of the eight argument arrays. The region finds x and y as launched, the
  three weight matrices transposed and the three bias vectors reshaped to one row (the host lines before the
  region). At grid point t = 3·b + i the x window's block is rows [1024·(i−1), 1024·i) of batch b (the block of
  step 1 again at step 0), the y window's block is batch b whole, and the six weight and bias windows are their
  whole arrays. Each block is read here at an index, as an entry of an argument array.
-/
import proofs.«109580_g747324309857_cont_9to1_m_273_28_alg».proof.Proof.KI.Body
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.AttnReads

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen Cert.KernelIdeal.Body

variable (m : (ℓ : Loc nD τ sig) → Buf (Elt Ideal) ℓ)

/-! ## The arrays the host lines wrote -/

theorem V_v0 (c : Dev nD) : (V m c main_v0 : S768x768.Idx → EReal)
    = transpose S768x768 [1, 0] (m ((c : Thread nD τ).loc main_arg2)) transposes_S768x768_S768x768_1_0 := by
  dsimp only [V, hostOps0]; after_results
theorem V_v1 (c : Dev nD) : (V m c main_v1 : S768x768.Idx → EReal)
    = transpose S768x768 [1, 0] (m ((c : Thread nD τ).loc main_arg4)) transposes_S768x768_S768x768_1_0 := by
  dsimp only [V, hostOps0]; after_results
theorem V_v2 (c : Dev nD) : (V m c main_v2 : S768x768.Idx → EReal)
    = transpose S768x768 [1, 0] (m ((c : Thread nD τ).loc main_arg6)) transposes_S768x768_S768x768_1_0 := by
  dsimp only [V, hostOps0]; after_results
theorem V_v3 (c : Dev nD) : (V m c main_v3 : S1x768.Idx → EReal)
    = shapeCast S1x768 (m ((c : Thread nD τ).loc main_arg3)) shapeCasts_S768_S1x768 := by
  dsimp only [V, hostOps0]; after_results; rfl
theorem V_v4 (c : Dev nD) : (V m c main_v4 : S1x768.Idx → EReal)
    = shapeCast S1x768 (m ((c : Thread nD τ).loc main_arg5)) shapeCasts_S768_S1x768 := by
  dsimp only [V, hostOps0]; after_results; rfl
theorem V_v5 (c : Dev nD) : (V m c main_v5 : S1x768.Idx → EReal)
    = shapeCast S1x768 (m ((c : Thread nD τ).loc main_arg7)) shapeCasts_S768_S1x768 := by
  dsimp only [V, hostOps0]; after_results; rfl

/-! ## The index maps over the grid -/

theorem idx_x : ∀ t : Fin cfg0.N, win0_0.index t (0 : Fin 3) = t.val / 3 ∧ win0_0.index t (1 : Fin 3) = t.val % 3 - 1
    ∧ win0_0.index t (2 : Fin 3) = 0 := (by decide +kernel : ∀ t : Fin grid0.N, _)
theorem idx_y : ∀ t : Fin cfg0.N, win0_1.index t (0 : Fin 3) = t.val / 3 ∧ win0_1.index t (1 : Fin 3) = 0
    ∧ win0_1.index t (2 : Fin 3) = 0 := (by decide +kernel : ∀ t : Fin grid0.N, _)
theorem idx_w : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) := (by decide +kernel : ∀ t : Fin grid0.N, _)
theorem idx_o : ∀ t : Fin cfg0.N, win0_8.index t (0 : Fin 3) = t.val / 3 ∧ win0_8.index t (1 : Fin 3) = t.val % 3 - 1
    ∧ win0_8.index t (2 : Fin 3) = 0 := (by decide +kernel : ∀ t : Fin grid0.N, _)

/-! ## The blocks, read at an index -/

/-- The x window's block at point t: row r of the block is row (t % 3 − 1)·1024 + r of batch t / 3. -/
theorem blkX_apply (c : Dev nD) (t : Fin cfg0.N) (u : Fin 1) (r : Fin 1024) (d : Fin 768) (b : Fin 4) (row : Fin 2048)
    (hb : b.val = t.val / 3) (hrow : row.val = (t.val % 3 - 1) * 1024 + r.val) :
    (iblk m c 0 t : Vec Ideal S1x1024x768 .f32) (ix3 u r d) = m ((c : Thread nD τ).loc main_arg0) (ix3 b row d) := by
  obtain ⟨e0, e1, e2⟩ := idx_x t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * u.val = b.val; omega
  | ⟨1, _⟩ => show win0_0.index t (1 : Fin 3) * 1024 + 1 * r.val = row.val; omega
  | ⟨2, _⟩ => show win0_0.index t (2 : Fin 3) * 768 + 1 * d.val = d.val; omega

/-- The y window's block at point t is batch t / 3 of y. -/
theorem blkY_apply (c : Dev nD) (t : Fin cfg0.N) (u : Fin 1) (j : Fin 2048) (d : Fin 768) (b : Fin 4) (hb : b.val = t.val / 3) :
    (iblk m c 1 t : Vec Ideal S1x2048x768 .f32) (ix3 u j d) = m ((c : Thread nD τ).loc main_arg1) (ix3 b j d) := by
  obtain ⟨e0, e1, e2⟩ := idx_y t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * u.val = b.val; omega
  | ⟨1, _⟩ => show win0_1.index t (1 : Fin 3) * 2048 + 1 * j.val = j.val; omega
  | ⟨2, _⟩ => show win0_1.index t (2 : Fin 3) * 768 + 1 * d.val = d.val; omega

/-- The window of the transposed query weights is the whole array: entry (d, e) is entry (e, d) of the argument. -/
theorem blkWq_apply (c : Dev nD) (t : Fin cfg0.N) (d e : Fin 768) :
    (iblk m c 2 t : Vec Ideal S768x768 .f32) (ix2 d e) = m ((c : Thread nD τ).loc main_arg2) (ix2 e d) := by
  obtain ⟨h2, h3, h4, h5, h6, h7⟩ := idx_w t
  unfold iblk
  rw [View.read_apply]
  show V m c main_v0 _ = _
  rw [V_v0]
  have he : ((cfg0.win 2).blk t).view.emb (ix2 d e) = (ix2 d e : S768x768.Idx) := funext fun a => Fin.ext (by
    match a with
    | ⟨0, _⟩ => show win0_2.index t (0 : Fin 2) * 768 + 1 * d.val = d.val; omega
    | ⟨1, _⟩ => show win0_2.index t (1 : Fin 2) * 768 + 1 * e.val = e.val; omega)
  rw [he, transpose_ix2_apply]

/-- The window of the query bias is its one row: entry (0, e) is entry e of the argument. -/
theorem blkBq_apply (c : Dev nD) (t : Fin cfg0.N) (u : Fin 1) (e : Fin 768) :
    (iblk m c 3 t : Vec Ideal S1x768 .f32) (ix2 u e) = m ((c : Thread nD τ).loc main_arg3) (ix1 e) := by
  obtain ⟨h2, h3, h4, h5, h6, h7⟩ := idx_w t
  unfold iblk
  rw [View.read_apply]
  show V m c main_v3 _ = _
  rw [V_v3]
  have he : ((cfg0.win 3).blk t).view.emb (ix2 u e) = (ix2 u e : S1x768.Idx) := funext fun a => Fin.ext (by
    match a with
    | ⟨0, _⟩ => show win0_3.index t (0 : Fin 2) * 1 + 1 * u.val = u.val; omega
    | ⟨1, _⟩ => show win0_3.index t (1 : Fin 2) * 768 + 1 * e.val = e.val; omega)
  rw [he, shapeCast_a_1a_apply]

/-- The window of the transposed key weights is the whole array: entry (d, e) is entry (e, d) of the argument. -/
theorem blkWk_apply (c : Dev nD) (t : Fin cfg0.N) (d e : Fin 768) :
    (iblk m c 4 t : Vec Ideal S768x768 .f32) (ix2 d e) = m ((c : Thread nD τ).loc main_arg4) (ix2 e d) := by
  obtain ⟨h2, h3, h4, h5, h6, h7⟩ := idx_w t
  unfold iblk
  rw [View.read_apply]
  show V m c main_v1 _ = _
  rw [V_v1]
  have he : ((cfg0.win 4).blk t).view.emb (ix2 d e) = (ix2 d e : S768x768.Idx) := funext fun a => Fin.ext (by
    match a with
    | ⟨0, _⟩ => show win0_4.index t (0 : Fin 2) * 768 + 1 * d.val = d.val; omega
    | ⟨1, _⟩ => show win0_4.index t (1 : Fin 2) * 768 + 1 * e.val = e.val; omega)
  rw [he, transpose_ix2_apply]

/-- The window of the key bias is its one row: entry (0, e) is entry e of the argument. -/
theorem blkBk_apply (c : Dev nD) (t : Fin cfg0.N) (u : Fin 1) (e : Fin 768) :
    (iblk m c 5 t : Vec Ideal S1x768 .f32) (ix2 u e) = m ((c : Thread nD τ).loc main_arg5) (ix1 e) := by
  obtain ⟨h2, h3, h4, h5, h6, h7⟩ := idx_w t
  unfold iblk
  rw [View.read_apply]
  show V m c main_v4 _ = _
  rw [V_v4]
  have he : ((cfg0.win 5).blk t).view.emb (ix2 u e) = (ix2 u e : S1x768.Idx) := funext fun a => Fin.ext (by
    match a with
    | ⟨0, _⟩ => show win0_5.index t (0 : Fin 2) * 1 + 1 * u.val = u.val; omega
    | ⟨1, _⟩ => show win0_5.index t (1 : Fin 2) * 768 + 1 * e.val = e.val; omega)
  rw [he, shapeCast_a_1a_apply]

/-- The window of the transposed value weights is the whole array: entry (d, e) is entry (e, d) of the argument. -/
theorem blkWv_apply (c : Dev nD) (t : Fin cfg0.N) (d e : Fin 768) :
    (iblk m c 6 t : Vec Ideal S768x768 .f32) (ix2 d e) = m ((c : Thread nD τ).loc main_arg6) (ix2 e d) := by
  obtain ⟨h2, h3, h4, h5, h6, h7⟩ := idx_w t
  unfold iblk
  rw [View.read_apply]
  show V m c main_v2 _ = _
  rw [V_v2]
  have he : ((cfg0.win 6).blk t).view.emb (ix2 d e) = (ix2 d e : S768x768.Idx) := funext fun a => Fin.ext (by
    match a with
    | ⟨0, _⟩ => show win0_6.index t (0 : Fin 2) * 768 + 1 * d.val = d.val; omega
    | ⟨1, _⟩ => show win0_6.index t (1 : Fin 2) * 768 + 1 * e.val = e.val; omega)
  rw [he, transpose_ix2_apply]

/-- The window of the value bias is its one row: entry (0, e) is entry e of the argument. -/
theorem blkBv_apply (c : Dev nD) (t : Fin cfg0.N) (u : Fin 1) (e : Fin 768) :
    (iblk m c 7 t : Vec Ideal S1x768 .f32) (ix2 u e) = m ((c : Thread nD τ).loc main_arg7) (ix1 e) := by
  obtain ⟨h2, h3, h4, h5, h6, h7⟩ := idx_w t
  unfold iblk
  rw [View.read_apply]
  show V m c main_v5 _ = _
  rw [V_v5]
  have he : ((cfg0.win 7).blk t).view.emb (ix2 u e) = (ix2 u e : S1x768.Idx) := funext fun a => Fin.ext (by
    match a with
    | ⟨0, _⟩ => show win0_7.index t (0 : Fin 2) * 1 + 1 * u.val = u.val; omega
    | ⟨1, _⟩ => show win0_7.index t (1 : Fin 2) * 768 + 1 * e.val = e.val; omega)
  rw [he, shapeCast_a_1a_apply]

end Cert.AttnReads

end
-- ==== Proof.AttnPieces.lean ====
/-
  What the body's stores leave, read back as values. A projection step's one whole-buffer store into each
  scratch buffer leaves the projected keys, and the projected values, of the blocks the step loaded. An attention
  step's two stores into the output window's buffer leave, in rows [0, 512), the attention of the first 512
  query rows of the block and, in rows [512, 1024), that of the last 512: the second store's rectangle starts at
  row 512, so a row below 512 is read through to the first store.
-/
import proofs.«109580_g747324309857_cont_9to1_m_273_28_alg».proof.Proof.KI.Body
import Idealize.ShloMosaic.Lib.Pipeline.Value
import Idealize.ShloMosaic.Lib.ValueIdx
import Idealize.ShloMosaic.Lib.Tactic

set_option maxRecDepth 16384

noncomputable section

namespace Cert.AttnPieces

open Idealize.ShloMosaic Idealize.ShloMosaic.TcCoe Idealize.ShloMosaic.ValueIdx Idealize.SL.Sem Idealize.ShloMosaic.Tactic
open Cert.KernelIdeal Cert.KernelIdeal.Gen Cert.KernelIdeal.Body

theorem hz2 : (![0, 0] : Fin 2 → Nat) = fun _ => 0 := funext fun a => by fin_cases a <;> rfl
theorem hz3 : (![0, 0, 0] : Fin 3 → Nat) = fun _ => 0 := funext fun a => by fin_cases a <;> rfl

/-- The keys' scratch buffer after a projection step. -/
theorem projRun_K (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : projStep i) (ha : ¬attStep i)
    (y : Vec Ideal S1x2048x768 .f32) (wk : Vec Ideal S768x768 .f32) (bk : Vec Ideal S1x768 .f32) (wv : Vec Ideal S768x768 .f32) (bv : Vec Ideal S1x768 .f32) :
    View.canon (projRun c i arg2 harg2 arg3 harg3 arg4 harg4 arg5 harg5 arg6 harg6 arg7 harg7 arg8 harg8 arg9 harg9 arg10 harg10 arg11 harg11 arg12 harg12 hp ha y wk bk wv bv).1 = k0_pay2 y wk bk := by
  unfold projRun
  dsimp only
  rw [View.canon_unit_zero hz2]
  simp only [View.readAt_eq_ld, harg3.read_unread, harg6.read_unread, harg7.read_unread,
    View.ld_unit_zero (S := S1x2048x768) hz3, View.ld_unit_zero (S := S768x768) hz2, View.ld_unit_zero (S := S1x768) hz2]

/-- The values' scratch buffer after a projection step. -/
theorem projRun_V (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : projStep i) (ha : ¬attStep i)
    (y : Vec Ideal S1x2048x768 .f32) (wk : Vec Ideal S768x768 .f32) (bk : Vec Ideal S1x768 .f32) (wv : Vec Ideal S768x768 .f32) (bv : Vec Ideal S1x768 .f32) :
    View.canon (projRun c i arg2 harg2 arg3 harg3 arg4 harg4 arg5 harg5 arg6 harg6 arg7 harg7 arg8 harg8 arg9 harg9 arg10 harg10 arg11 harg11 arg12 harg12 hp ha y wk bk wv bv).2.1 = k0_pay3 y wv bv := by
  unfold projRun
  dsimp only
  rw [View.canon_unit_zero hz2]
  simp only [View.readAt_eq_ld, harg3.read_unread, harg8.read_unread, harg9.read_unread,
    View.ld_unit_zero (S := S1x2048x768) hz3, View.ld_unit_zero (S := S768x768) hz2, View.ld_unit_zero (S := S1x768) hz2]

/-- The output buffer after an attention step, at a row of the second half. -/
theorem attRun_hi (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : ¬projStep i) (ha : attStep i)
    (x : Vec Ideal S1x1024x768 .f32) (wq : Vec Ideal S768x768 .f32) (bq : Vec Ideal S1x768 .f32) (kk vv : Vec Ideal S2048x768 .f32)
    (u : Fin 1) (r : Fin 512) (d : Fin 768) :
    View.canon (attRun c i arg2 harg2 arg3 harg3 arg4 harg4 arg5 harg5 arg6 harg6 arg7 harg7 arg8 harg8 arg9 harg9 arg10 harg10 arg11 harg11 arg12 harg12 hp ha x wq bq kk vv).1 (ix3 u (⟨512 + r.val, by omega⟩ : Fin 1024) d)
      = k0_pay4 (k0_pay7 x) (k0_pay8 x wq bq) kk vv (ix3 u r d) := by
  unfold attRun
  dsimp only
  sl_unfold_words
  have he : (Rect.unit (s := S1x1024x768) ![0, 512, 0] ![1, 512, 768] inb_S1x1024x768_S1x512x768_0_512_0).emb (ix3 u r d)
      = ix3 u (⟨512 + r.val, by omega⟩ : Fin 1024) d := funext fun a => Fin.ext (by
    match a with
    | ⟨0, _⟩ => show 0 + 1 * u.val = u.val; omega
    | ⟨1, _⟩ => show 512 + 1 * r.val = 512 + r.val; omega
    | ⟨2, _⟩ => show 0 + 1 * d.val = d.val; omega)
  rw [← he, View.canon_cons_emb]
  simp only [View.readAt_eq_ld, harg2.read_unread, harg4.read_unread, harg5.read_unread, harg11.read_unread, harg12.read_unread,
    View.ld_unit_zero (S := S1x1024x768) hz3, View.ld_unit_zero (S := S768x768) hz2, View.ld_unit_zero (S := S1x768) hz2,
    View.ld_unit_zero (S := S2048x768) hz2]

/-- The output buffer after an attention step, at a row of the first half. -/
theorem attRun_lo (c : Dev nD) (i : grid0.Coords) (arg2 : Memref sig .tc .vmem S1x1024x768 .f32) (harg2 : arg2.IsWhole) (arg3 : Memref sig .tc .vmem S1x2048x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x1024x768 .f32) (harg10 : arg10.IsWhole) (arg11 : Memref sig .tc .vmem S2048x768 .f32) (harg11 : arg11.IsWhole) (arg12 : Memref sig .tc .vmem S2048x768 .f32) (harg12 : arg12.IsWhole) (hp : ¬projStep i) (ha : attStep i)
    (x : Vec Ideal S1x1024x768 .f32) (wq : Vec Ideal S768x768 .f32) (bq : Vec Ideal S1x768 .f32) (kk vv : Vec Ideal S2048x768 .f32)
    (u : Fin 1) (r : Fin 512) (d : Fin 768) :
    View.canon (attRun c i arg2 harg2 arg3 harg3 arg4 harg4 arg5 harg5 arg6 harg6 arg7 harg7 arg8 harg8 arg9 harg9 arg10 harg10 arg11 harg11 arg12 harg12 hp ha x wq bq kk vv).1 (ix3 u (⟨r.val, by omega⟩ : Fin 1024) d)
      = k0_pay6 x wq bq kk vv (ix3 u r d) := by
  unfold attRun
  dsimp only
  rw [View.canon_cons_of_not_mem _ _ (fun hm => by
    have hm' : ix3 u (⟨r.val, by omega⟩ : Fin 1024) d
        ∈ (Rect.unit (s := S1x1024x768) ![0, 512, 0] ![1, 512, 768] inb_S1x1024x768_S1x512x768_0_512_0).set := hm
    have h1 := (Rect.mem_set_unit.mp hm') (1 : Fin 3)
    have h2 : 512 ≤ r.val := h1.1
    omega)]
  have he : (Rect.unit (s := S1x1024x768) ![0, 0, 0] ![1, 512, 768] inb_S1x1024x768_S1x512x768_0_0_0).emb (ix3 u r d)
      = ix3 u (⟨r.val, by omega⟩ : Fin 1024) d := funext fun a => Fin.ext (by
    match a with
    | ⟨0, _⟩ => show 0 + 1 * u.val = u.val; omega
    | ⟨1, _⟩ => show 0 + 1 * r.val = r.val; omega
    | ⟨2, _⟩ => show 0 + 1 * d.val = d.val; omega)
  rw [← he, View.canon_cons_emb]
  simp only [View.readAt_eq_ld, harg2.read_unread, harg4.read_unread, harg5.read_unread, harg11.read_unread, harg12.read_unread,
    View.ld_unit_zero (S := S1x1024x768) hz3, View.ld_unit_zero (S := S768x768) hz2, View.ld_unit_zero (S := S1x768) hz2,
    View.ld_unit_zero (S := S2048x768) hz2]

end Cert.AttnPieces

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.AttnBlocks.lean ====
/-
  The arithmetic of the kernel body, read at an index over the extended reals. Each store of the body writes one
  pure function of the values the body loaded; this module reads those functions entry by entry:

  * the projection of a block of 2048 rows, (rows · W) + bias, as a sum over the 768 input features;
  * the two halves of 512 rows of a block of 1024 query rows, and their projected queries;
  * the attention of 512 projected query rows against 2048 projected key and value rows: the scores as sums
    over the 768 features, the row maximum as a fold of max over the keys from the accumulator's word, the
    weights exp (score − maximum), their row total, and the weighted sum of the values divided by that total,
    plus the residual row.
-/
import proofs.«109580_g747324309857_cont_9to1_m_273_28_alg».proof.Proof.Gen.KernelIdeal.Skeleton
import proofs.«109580_g747324309857_cont_9to1_m_273_28_alg».proof.Proof.LibPlainDot
import proofs.«109580_g747324309857_cont_9to1_m_273_28_alg».proof.Proof.LibDotNT
import proofs.«109580_g747324309857_cont_9to1_m_273_28_alg».proof.Proof.LibRowReads
import proofs.«109580_g747324309857_cont_9to1_m_273_28_alg».proof.Proof.LibColumnReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AttnBlocks

open Idealize.ShloMosaic Idealize.ShloMosaic.ValueIdx Idealize.SL.Sem
open Cert.KernelIdeal Cert.KernelIdeal.Gen

/-! ## The projection of a block of rows -/

/-- The projected keys: entry (j, e) is the row j of the block times column e of the weights, plus the bias. -/
theorem pay2_apply (y : Vec Ideal S1x2048x768 .f32) (w : Vec Ideal S768x768 .f32) (bb : Vec Ideal S1x768 .f32) (j : Fin 2048) (e : Fin 768) :
    k0_pay2 y w bb (ix2 j e) = (∑ d : Fin 768, y (ix3 (0 : Fin 1) j d) * w (ix2 d e)) + bb (ix2 (0 : Fin 1) e) := by
  unfold k0_pay2 k0_pay1
  simp only [shapeCast_self]
  rw [addf_apply, broadcastTo_1b_ab_apply]
  refine congrArg (· + bb (ix2 (0 : Fin 1) e)) ((Cert.Lib.PlainDot.matmul_zero_apply 2048 768 768 none _ _ (ix2 j e)).trans ?_)
  refine Finset.sum_congr rfl fun d _ => ?_
  show shapeCast S2048x768 y _ (ix2 j d) * w (ix2 d e) = _
  rw [shapeCast_1ab_ab_apply]

/-- The projected values: the same function of the value weights and bias. -/
theorem pay3_apply (y : Vec Ideal S1x2048x768 .f32) (w : Vec Ideal S768x768 .f32) (bb : Vec Ideal S1x768 .f32) (j : Fin 2048) (e : Fin 768) :
    k0_pay3 y w bb (ix2 j e) = (∑ d : Fin 768, y (ix3 (0 : Fin 1) j d) * w (ix2 d e)) + bb (ix2 (0 : Fin 1) e) :=
  pay2_apply y w bb j e

/-! ## The query rows -/

/-- The first 512 rows of a block of 1024 query rows. -/
def half0 (x : FVec Ideal S1x1024x768 .f32) : FVec Ideal S512x768 .f32 :=
  extractStridedSlice S512x768 ![0, 0] (k0_pay5 x) slices_S1024x768_o0_0_S512x768

theorem half0_apply (x : FVec Ideal S1x1024x768 .f32) (r : Fin 512) (d : Fin 768) :
    half0 x (ix2 r d) = x (ix3 (0 : Fin 1) (⟨r.val, by omega⟩ : Fin 1024) d) := by
  unfold half0 k0_pay5
  rw [slice2_axis0_apply 0 _ _ r d (⟨r.val, by omega⟩ : Fin 1024) (by simp), shapeCast_1ab_ab_apply]

/-- The last 512 rows. -/
theorem half1_apply (x : FVec Ideal S1x1024x768 .f32) (r : Fin 512) (d : Fin 768) :
    k0_pay7 x (ix2 r d) = x (ix3 (0 : Fin 1) (⟨512 + r.val, by omega⟩ : Fin 1024) d) := by
  unfold k0_pay7 k0_pay5
  rw [slice2_axis0_apply 512 _ _ r d (⟨512 + r.val, by omega⟩ : Fin 1024) rfl, shapeCast_1ab_ab_apply]

/-- 512 rows projected by the query weights and bias. -/
def qrows (xs : FVec Ideal S512x768 .f32) (wq : FVec Ideal S768x768 .f32) (bq : FVec Ideal S1x768 .f32) : FVec Ideal S512x768 .f32 :=
  addf (matmul dot_S512x768_S768x768_S512x768_1_0_0_1_n_n none xs (shapeCast S768x768 wq shapeCasts_S768x768_S768x768) (constant S512x768 .f32 0x00000000#32))
    (broadcastTo S512x768 (shapeCast S1x768 bq shapeCasts_S1x768_S1x768) broadcasts_S1x768_S512x768)

theorem qrows_apply (xs : FVec Ideal S512x768 .f32) (wq : FVec Ideal S768x768 .f32) (bq : FVec Ideal S1x768 .f32) (r : Fin 512) (e : Fin 768) :
    qrows xs wq bq (ix2 r e) = (∑ d : Fin 768, xs (ix2 r d) * wq (ix2 d e)) + bq (ix2 (0 : Fin 1) e) := by
  unfold qrows
  simp only [shapeCast_self]
  rw [addf_apply, broadcastTo_1b_ab_apply]
  exact congrArg (· + bq (ix2 (0 : Fin 1) e)) (Cert.Lib.PlainDot.matmul_zero_apply 512 768 768 none _ _ (ix2 r e))

/-- The second half's projected queries are the body's own term for them. -/
theorem pay8_eq (x : FVec Ideal S1x1024x768 .f32) (wq : FVec Ideal S768x768 .f32) (bq : FVec Ideal S1x768 .f32) :
    k0_pay8 x wq bq = qrows (k0_pay7 x) wq bq := rfl

/-! ## The attention of 512 query rows -/

/-- The scores: projected query row r against projected key row j. -/
theorem scores_apply (q : FVec Ideal S512x768 .f32) (kk : FVec Ideal S2048x768 .f32) (r : Fin 512) (j : Fin 2048) :
    matmul dot_S512x768_S2048x768_S512x2048_1_1_0_0_n_n none q kk (constant S512x2048 .f32 0x00000000#32) (ix2 r j)
      = ∑ e : Fin 768, q (ix2 r e) * kk (ix2 j e) :=
  Cert.Lib.DotNT.matmul_zero_apply none q kk r j

/-- The row maximum, put back as a column and spread over the keys. -/
theorem rowMaxCol_apply (s : FVec Ideal S512x2048 .f32) (r : Fin 512) (j : Fin 2048) :
    broadcastTo S512x2048 (shapeCast S512x1 (multiReduction (F := Ideal) .maximumf [1] S512 s 0xFF800000#32 reduces_S512x2048_S512 (.inl rfl) rfl)
        shapeCasts_S512_S512x1) broadcasts_S512x1_S512x2048 (ix2 r j)
      = (Finset.univ : Finset (Fin 2048)).fold max (Ideal.ofBits .f32 0xFF800000#32) (fun k => s (ix2 r k)) := by
  rw [Cert.LibColumnReads.broadcastTo_a1_ab_apply, Cert.LibColumnReads.shapeCast_a_a1_apply]
  exact Cert.LibRowReads.rowMax_apply s _ _ _ _ r

/-- The row total, put back as a column and spread over the features. -/
theorem rowSumCol_apply (p : FVec Ideal S512x2048 .f32) (r : Fin 512) (d : Fin 768) :
    broadcastTo S512x768 (shapeCast S512x1 (multiReduction (F := Ideal) .add [1] S512 p 0x00000000#32 reduces_S512x2048_S512 (.inl rfl) rfl)
        shapeCasts_S512_S512x1) broadcasts_S512x1_S512x768 (ix2 r d)
      = ∑ k : Fin 2048, p (ix2 r k) := by
  rw [Cert.LibColumnReads.broadcastTo_a1_ab_apply, Cert.LibColumnReads.shapeCast_a_a1_apply]
  exact Cert.LibRowReads.rowSum_apply p _ _ _ _ r

/-- The weights of query row r: exp (score − the row's maximum). -/
def weightAt (q : FVec Ideal S512x768 .f32) (kk : FVec Ideal S2048x768 .f32) (r : Fin 512) (j : Fin 2048) : EReal :=
  Ideal.exp ((∑ e : Fin 768, q (ix2 r e) * kk (ix2 j e))
    - (Finset.univ : Finset (Fin 2048)).fold max (Ideal.ofBits .f32 0xFF800000#32) (fun k => ∑ e : Fin 768, q (ix2 r e) * kk (ix2 k e)))

/-- What the body stores for 512 query rows `q` with residual rows `xs`, at (r, d): the weighted sum of the
    values over the row total, plus the residual. -/
theorem pay4_apply (xs q : FVec Ideal S512x768 .f32) (kk vv : FVec Ideal S2048x768 .f32) (u : Fin 1) (r : Fin 512) (d : Fin 768) :
    k0_pay4 xs q kk vv (ix3 u r d)
      = Ideal.div (∑ j : Fin 2048, weightAt q kk r j * vv (ix2 j d)) (∑ j : Fin 2048, weightAt q kk r j) + xs (ix2 r d) := by
  unfold k0_pay4
  rw [shapeCast_ab_1ab_apply, addf_apply, divf_apply]
  have hw : ∀ j : Fin 2048,
      exp (subf (matmul dot_S512x768_S2048x768_S512x2048_1_1_0_0_n_n none q kk (constant S512x2048 .f32 0x00000000#32))
        (broadcastTo S512x2048 (shapeCast S512x1 (multiReduction (F := Ideal) .maximumf [1] S512
          (matmul dot_S512x768_S2048x768_S512x2048_1_1_0_0_n_n none q kk (constant S512x2048 .f32 0x00000000#32)) 0xFF800000#32 reduces_S512x2048_S512 (.inl rfl) rfl)
          shapeCasts_S512_S512x1) broadcasts_S512x1_S512x2048)) (ix2 r j) = weightAt q kk r j := fun j => by
    show Ideal.exp (_ - _) = _
    rw [rowMaxCol_apply, scores_apply]
    unfold weightAt
    simp only [scores_apply]
  rw [rowSumCol_apply]
  refine congrArg (· + xs (ix2 r d)) (congrArg₂ Ideal.div ?_ (Finset.sum_congr rfl fun j _ => hw j))
  refine (Cert.Lib.PlainDot.matmul_zero_apply 512 2048 768 none _ _ (ix2 r d)).trans ?_
  exact Finset.sum_congr rfl fun j _ => congrArg (· * vv (ix2 j d)) (hw j)

/-- The first half's store is the same function, of the first 512 rows and their projected queries. -/
theorem pay6_eq (x : FVec Ideal S1x1024x768 .f32) (wq : FVec Ideal S768x768 .f32) (bq : FVec Ideal S1x768 .f32) (kk vv : FVec Ideal S2048x768 .f32) :
    k0_pay6 x wq bq kk vv = k0_pay4 (half0 x) (qrows (half0 x) wq bq) kk vv := rfl

end Cert.AttnBlocks

end
-- ==== Proof.LibOnlineSoftmax.lean ====
/-
  The streaming form of the softmax normaliser, over the extended reals.

  A finite family of real scores is read in consecutive blocks. A running pair (m, l) starts at (⊥, 0); a
  block B replaces it by m' = max m (max over B, taken from ⊥) and
  l' = exp (m − m') · l + Σ_{j ∈ B} exp (s j − m'), with the extended reals' conventions exp ⊥ = 0 and
  ⊥ − x = ⊥. After any number of blocks the pair is the closed form (largest score seen, sum over the scores
  seen of exp (s j − largest)); once a block has been read both are real, the sum is at least 1, and
  exp (s j − (m + log l)) = exp (s j − m) / l.

  The scores are indexed by the natural numbers (block b of width w is the columns w·b, …, w·b + w − 1), and
  a family indexed by Fin n is read through its extension by zero.
-/
import Mathlib
import Idealize.ShloMosaic.PureOps.Ideal

noncomputable section

namespace Cert.LibOnlineSoftmax

open Idealize.ShloMosaic

/-! ### Coerced reals -/

/-- A real number minus itself is zero in the extended reals. -/
theorem coe_sub_self (x : ℝ) : ((x : ℝ) : EReal) - ((x : ℝ) : EReal) = 0 := by
  rw [← EReal.coe_sub, sub_self, EReal.coe_zero]

/-- Zero times a real number is zero in the extended reals. -/
theorem zero_mul_coe (x : ℝ) : (0 : EReal) * ((x : ℝ) : EReal) = 0 := zero_mul _

/-- A finite sum of coerced reals is the coerced sum. -/
theorem coe_sum {ι : Type*} (t : Finset ι) (f : ι → ℝ) :
    ∑ i ∈ t, ((f i : ℝ) : EReal) = ((∑ i ∈ t, f i : ℝ) : EReal) := by
  classical
  refine Finset.induction_on t ?_ ?_
  · simp
  · intro a t ha ih
    rw [Finset.sum_insert ha, Finset.sum_insert ha, ih, EReal.coe_add]

/-- The quotient of two coerced reals with a nonzero divisor is the coerced quotient. -/
theorem div_coe_coe (a b : ℝ) (hb : b ≠ 0) : Ideal.div ((a : ℝ) : EReal) ((b : ℝ) : EReal) = ((a / b : ℝ) : EReal) := by
  rw [Ideal.div_coe hb, ← EReal.coe_mul]
  congr 1
  rw [mul_one_div]

/-- With l > 0, exp (x − (m + log l)) = exp (x − m) / l. -/
theorem exp_sub_lse (x m l : ℝ) (hl : 0 < l) :
    Ideal.exp (((x : ℝ) : EReal) - (((m : ℝ) : EReal) + Ideal.log ((l : ℝ) : EReal)))
      = ((Real.exp (x - m) / l : ℝ) : EReal) := by
  rw [Ideal.log_coe, if_neg (not_le.2 hl), ← EReal.coe_add, ← EReal.coe_sub, Ideal.exp_coe]
  congr 1
  rw [show x - (m + Real.log l) = (x - m) - Real.log l by ring, Real.exp_sub, Real.exp_log hl]

/-! ### Maxima -/

/-- The fold of max from ⊥ is the supremum. -/
theorem fold_max_bot {ι : Type*} (t : Finset ι) (f : ι → EReal) : t.fold max ⊥ f = t.sup f :=
  le_antisymm ((Finset.fold_max_le _).2 ⟨bot_le, fun _ hx => Finset.le_sup hx⟩)
    (Finset.sup_le fun x hx => (Finset.le_fold_max _).2 (Or.inr ⟨x, hx, le_rfl⟩))

/-- Over a nonempty finite set the supremum of coerced reals is the coerced maximum. -/
theorem sup_coe {ι : Type*} (t : Finset ι) (H : t.Nonempty) (f : ι → ℝ) :
    t.sup (fun i => ((f i : ℝ) : EReal)) = ((t.sup' H f : ℝ) : EReal) := by
  apply le_antisymm
  · exact Finset.sup_le fun i hi => EReal.coe_le_coe_iff.2 (Finset.le_sup' f hi)
  · obtain ⟨i, hi, he⟩ := Finset.exists_mem_eq_sup' H f
    rw [he]
    exact Finset.le_sup (f := fun i => ((f i : ℝ) : EReal)) hi

/-- The fold of max from ⊥ over a nonempty finite set of coerced reals is the coerced maximum. -/
theorem fold_max_coe {ι : Type*} (t : Finset ι) (H : t.Nonempty) (f : ι → ℝ) :
    t.fold max ⊥ (fun i => ((f i : ℝ) : EReal)) = ((t.sup' H f : ℝ) : EReal) := by
  rw [fold_max_bot, sup_coe t H f]

/-- The shifted exponentials over a nonempty finite set sum to at least 1: the largest score contributes exp 0. -/
theorem one_le_sum_exp {ι : Type*} (t : Finset ι) (H : t.Nonempty) (f : ι → ℝ) :
    1 ≤ ∑ i ∈ t, Real.exp (f i - t.sup' H f) := by
  obtain ⟨i, hi, he⟩ := Finset.exists_mem_eq_sup' H f
  calc (1 : ℝ) = Real.exp (f i - t.sup' H f) := by rw [he, sub_self, Real.exp_zero]
    _ ≤ ∑ j ∈ t, Real.exp (f j - t.sup' H f) :=
      Finset.single_le_sum (f := fun j => Real.exp (f j - t.sup' H f)) (fun j _ => (Real.exp_pos _).le) hi

/-! ### The closed form of the running pair -/

/-- The largest of the first n scores as an extended real; ⊥ when n = 0. -/
def prefMax (s : ℕ → ℝ) (n : ℕ) : EReal := (Finset.range n).sup fun c => ((s c : ℝ) : EReal)

/-- The sum over the first n scores of exp (s c − largest of the first n); 0 when n = 0. -/
def prefSum (s : ℕ → ℝ) (n : ℕ) : EReal :=
  ∑ c ∈ Finset.range n, Ideal.exp (((s c : ℝ) : EReal) - prefMax s n)

theorem prefMax_zero (s : ℕ → ℝ) : prefMax s 0 = ⊥ := by
  unfold prefMax; rw [Finset.range_zero, Finset.sup_empty]

theorem prefSum_zero (s : ℕ → ℝ) : prefSum s 0 = 0 := by
  unfold prefSum; rw [Finset.range_zero, Finset.sum_empty]

/-- Once a score has been read the running maximum is the real maximum of the scores read. -/
theorem prefMax_coe (s : ℕ → ℝ) {n : ℕ} (H : (Finset.range n).Nonempty) :
    prefMax s n = (((Finset.range n).sup' H s : ℝ) : EReal) := sup_coe _ H s

/-- Once a score has been read the running sum is the real sum of the shifted exponentials of the scores read. -/
theorem prefSum_coe (s : ℕ → ℝ) {n : ℕ} (H : (Finset.range n).Nonempty) :
    prefSum s n = ((∑ c ∈ Finset.range n, Real.exp (s c - (Finset.range n).sup' H s) : ℝ) : EReal) := by
  unfold prefSum
  rw [prefMax_coe s H, ← coe_sum]
  refine Finset.sum_congr rfl fun c _ => ?_
  rw [← EReal.coe_sub, Ideal.exp_coe]

/-- Once a score has been read the running sum is a real number that is at least 1. -/
theorem prefSum_pos (s : ℕ → ℝ) {n : ℕ} (H : (Finset.range n).Nonempty) :
    ∃ L : ℝ, 1 ≤ L ∧ prefSum s n = ((L : ℝ) : EReal) :=
  ⟨_, one_le_sum_exp _ H s, prefSum_coe s H⟩

/-- Reading k further scores replaces the running maximum by its maximum with theirs. -/
theorem prefMax_add (s : ℕ → ℝ) (n k : ℕ) :
    prefMax s (n + k)
      = max (prefMax s n) ((Finset.univ : Finset (Fin k)).fold max ⊥ fun j => ((s (n + j.val) : ℝ) : EReal)) := by
  rw [fold_max_bot]
  unfold prefMax
  apply le_antisymm
  · refine Finset.sup_le fun c hc => ?_
    rw [Finset.mem_range] at hc
    by_cases h : c < n
    · exact le_max_of_le_left (Finset.le_sup (f := fun c => ((s c : ℝ) : EReal)) (Finset.mem_range.2 h))
    · have hj : c - n < k := by omega
      have e : n + (c - n) = c := by omega
      have hle := Finset.le_sup (f := fun j : Fin k => ((s (n + j.val) : ℝ) : EReal)) (Finset.mem_univ (⟨c - n, hj⟩ : Fin k))
      dsimp only at hle
      rw [e] at hle
      exact le_max_of_le_right hle
  · refine max_le (Finset.sup_mono (Finset.range_mono (Nat.le_add_right n k))) (Finset.sup_le fun j _ => ?_)
    exact Finset.le_sup (f := fun c => ((s c : ℝ) : EReal)) (Finset.mem_range.2 (by have := j.isLt; omega))

/-- Reading k ≥ 1 further scores rescales the running sum to the new maximum and adds their shifted exponentials. -/
theorem prefSum_add (s : ℕ → ℝ) (n k : ℕ) (hk : 0 < k) :
    prefSum s (n + k)
      = Ideal.exp (prefMax s n - prefMax s (n + k)) * prefSum s n
        + ∑ j : Fin k, Ideal.exp (((s (n + j.val) : ℝ) : EReal) - prefMax s (n + k)) := by
  have Hnk : (Finset.range (n + k)).Nonempty := Finset.nonempty_range_iff.2 (by omega)
  have key : ∑ c ∈ Finset.range n, Ideal.exp (((s c : ℝ) : EReal) - prefMax s (n + k))
      = Ideal.exp (prefMax s n - prefMax s (n + k)) * prefSum s n := by
    rcases Nat.eq_zero_or_pos n with hn | hn
    · subst hn
      rw [prefSum_zero, mul_zero, Finset.range_zero, Finset.sum_empty]
    · have Hn : (Finset.range n).Nonempty := Finset.nonempty_range_iff.2 hn.ne'
      rw [prefMax_coe s Hnk, prefMax_coe s Hn, prefSum_coe s Hn]
      simp only [← EReal.coe_sub, Ideal.exp_coe]
      rw [coe_sum, ← EReal.coe_mul, Finset.mul_sum]
      refine congrArg _ (Finset.sum_congr rfl fun c _ => ?_)
      rw [← Real.exp_add]
      congr 1
      ring
  rw [← key]
  unfold prefSum
  rw [Finset.sum_range_add, Fin.sum_univ_eq_sum_range (fun x => Ideal.exp (((s (n + x) : ℝ) : EReal) - prefMax s (n + k))) k]

/-! ### The recurrence -/

/-- A pair of sequences that starts at (⊥, 0) and follows the block update for N blocks of width w is the closed
    form: after b blocks it is the maximum and the shifted sum of the first w·b scores. -/
theorem stream_eq (w : ℕ) (hw : 0 < w) (s : ℕ → ℝ) (N : ℕ) (m l : ℕ → EReal)
    (hm0 : m 0 = ⊥) (hl0 : l 0 = 0)
    (hm : ∀ b, b < N → m (b + 1)
      = max (m b) ((Finset.univ : Finset (Fin w)).fold max ⊥ fun j => ((s (w * b + j.val) : ℝ) : EReal)))
    (hl : ∀ b, b < N → l (b + 1)
      = Ideal.exp (m b - m (b + 1)) * l b + ∑ j : Fin w, Ideal.exp (((s (w * b + j.val) : ℝ) : EReal) - m (b + 1))) :
    ∀ b, b ≤ N → m b = prefMax s (w * b) ∧ l b = prefSum s (w * b) := by
  intro b
  induction b with
  | zero =>
    intro _
    rw [Nat.mul_zero, prefMax_zero, prefSum_zero]
    exact ⟨hm0, hl0⟩
  | succ b ih =>
    intro hb
    obtain ⟨e1, e2⟩ := ih (by omega)
    have hM : m (b + 1) = prefMax s (w * b + w) := by
      rw [hm b (by omega), e1, prefMax_add]
    rw [mul_add_one]
    refine ⟨hM, ?_⟩
    rw [hl b (by omega), hM, e1, e2, prefSum_add s (w * b) w hw]

/-! ### Scores indexed by Fin n -/

/-- A family over Fin n extended by zero to the natural numbers. -/
def ofFin {n : ℕ} (g : Fin n → ℝ) (c : ℕ) : ℝ := if h : c < n then g ⟨c, h⟩ else 0

theorem ofFin_val {n : ℕ} (g : Fin n → ℝ) (i : Fin n) : ofFin g i.val = g i := by
  unfold ofFin; rw [dif_pos i.isLt]

/-- Over all n columns the running maximum of the extension is the family's maximum. -/
theorem prefMax_ofFin {n : ℕ} (g : Fin n → ℝ) (H : (Finset.univ : Finset (Fin n)).Nonempty) :
    prefMax (ofFin g) n = ((Finset.univ.sup' H g : ℝ) : EReal) := by
  rw [← sup_coe Finset.univ H g]
  unfold prefMax
  apply le_antisymm
  · refine Finset.sup_le fun c hc => ?_
    rw [Finset.mem_range] at hc
    have hle := Finset.le_sup (f := fun i : Fin n => ((g i : ℝ) : EReal)) (Finset.mem_univ (⟨c, hc⟩ : Fin n))
    rw [← ofFin_val g ⟨c, hc⟩] at hle
    exact hle
  · refine Finset.sup_le fun i _ => ?_
    rw [← ofFin_val g i]
    exact Finset.le_sup (f := fun c => ((ofFin g c : ℝ) : EReal)) (Finset.mem_range.2 i.isLt)

/-- Over all n columns the running sum of the extension is the family's sum of shifted exponentials. -/
theorem prefSum_ofFin {n : ℕ} (g : Fin n → ℝ) (H : (Finset.univ : Finset (Fin n)).Nonempty) :
    prefSum (ofFin g) n = ((∑ i : Fin n, Real.exp (g i - Finset.univ.sup' H g) : ℝ) : EReal) := by
  unfold prefSum
  rw [prefMax_ofFin g H,
    ← Fin.sum_univ_eq_sum_range (fun c => Ideal.exp (((ofFin g c : ℝ) : EReal) - ((Finset.univ.sup' H g : ℝ) : EReal))) n,
    ← coe_sum]
  refine Finset.sum_congr rfl fun i _ => ?_
  rw [ofFin_val, ← EReal.coe_sub, Ideal.exp_coe]

/-- The streaming softmax over n = w·N columns read as N blocks of width w, block b being the columns
    col b j = w·b + j: a pair of sequences that starts at (⊥, 0) and follows the block update ends, after
    the N blocks, at the family's maximum and its sum of shifted exponentials. -/
theorem streaming_softmax {n w N : ℕ} (hw : 0 < w) (hn : w * N = n) (g : Fin n → ℝ)
    (H : (Finset.univ : Finset (Fin n)).Nonempty)
    (col : ℕ → Fin w → Fin n) (hcol : ∀ b, b < N → ∀ j : Fin w, (col b j).val = w * b + j.val)
    (m l : ℕ → EReal) (hm0 : m 0 = ⊥) (hl0 : l 0 = 0)
    (hm : ∀ b, b < N → m (b + 1)
      = max (m b) ((Finset.univ : Finset (Fin w)).fold max ⊥ fun j => ((g (col b j) : ℝ) : EReal)))
    (hl : ∀ b, b < N → l (b + 1)
      = Ideal.exp (m b - m (b + 1)) * l b + ∑ j : Fin w, Ideal.exp (((g (col b j) : ℝ) : EReal) - m (b + 1))) :
    m N = ((Finset.univ.sup' H g : ℝ) : EReal)
      ∧ l N = ((∑ i : Fin n, Real.exp (g i - Finset.univ.sup' H g) : ℝ) : EReal) := by
  have hg : ∀ b, b < N → ∀ j : Fin w, g (col b j) = ofFin g (w * b + j.val) := by
    intro b hb j
    rw [← hcol b hb j, ofFin_val]
  have h := stream_eq w hw (ofFin g) N m l hm0 hl0
    (fun b hb => by rw [hm b hb]; simp only [hg b hb])
    (fun b hb => by rw [hl b hb]; simp only [hg b hb]) N le_rfl
  rw [hn] at h
  exact ⟨h.1.trans (prefMax_ofFin g H), h.2.trans (prefSum_ofFin g H)⟩

/-- The same, with the conclusions a later stage uses: the final pair is real, the sum is at least 1, and each
    exp (g i − (m + log l)) is the softmax weight exp (g i − max) / Σ exp (g i' − max). -/
theorem streaming_softmax_weights {n w N : ℕ} (hw : 0 < w) (hn : w * N = n) (g : Fin n → ℝ)
    (H : (Finset.univ : Finset (Fin n)).Nonempty)
    (col : ℕ → Fin w → Fin n) (hcol : ∀ b, b < N → ∀ j : Fin w, (col b j).val = w * b + j.val)
    (m l : ℕ → EReal) (hm0 : m 0 = ⊥) (hl0 : l 0 = 0)
    (hm : ∀ b, b < N → m (b + 1)
      = max (m b) ((Finset.univ : Finset (Fin w)).fold max ⊥ fun j => ((g (col b j) : ℝ) : EReal)))
    (hl : ∀ b, b < N → l (b + 1)
      = Ideal.exp (m b - m (b + 1)) * l b + ∑ j : Fin w, Ideal.exp (((g (col b j) : ℝ) : EReal) - m (b + 1)))
    (i : Fin n) :
    Ideal.exp (((g i : ℝ) : EReal) - (m N + Ideal.log (l N)))
      = ((Real.exp (g i - Finset.univ.sup' H g) / ∑ i' : Fin n, Real.exp (g i' - Finset.univ.sup' H g) : ℝ) : EReal) := by
  obtain ⟨e1, e2⟩ := streaming_softmax hw hn g H col hcol m l hm0 hl0 hm hl
  rw [e1, e2]
  exact exp_sub_lse _ _ _ (lt_of_lt_of_le one_pos (one_le_sum_exp Finset.univ H g))

end Cert.LibOnlineSoftmax

end
-- ==== Proof.LibSoftmaxLaw.lean ====
/-
  The softmax normalisation law over the extended reals, for reuse.

  * `IsReal`: an extended real that is a real number; closed under sums, products and finite sums.
  * `sum_mul_const`: a nonnegative finite constant multiplies through a finite sum of extended reals (no
    finiteness is asked of the summands).
  * `softmax_law`: for real scores S over a nonempty Fin n, with the maximum M folded from ⊥ and the weights
    w j = exp (S j − M): (∑ⱼ w j · v j) / (∑ⱼ w j) = ∑ⱼ (w j / ∑ⱼ' w j') · v j for ANY extended-real summands v.
    The total weight is a positive real, division by it is multiplication by a nonnegative real constant, and
    that constant goes through the sum.
  Imports the streaming-softmax library module, a copy of which sits beside it (for the coerced sum, the fold of
  max over coerced reals, and division by a nonzero real).
-/
import proofs.«109580_g747324309857_cont_9to1_m_273_28_alg».proof.Proof.LibOnlineSoftmax

noncomputable section

open scoped BigOperators

namespace Cert.LibSoftmaxLaw

open Idealize.ShloMosaic

/-! ## Real entries -/

/-- An extended real that is a real number. -/
def IsReal (a : EReal) : Prop := ∃ r : ℝ, a = (r : EReal)

theorem IsReal.add {a b : EReal} (ha : IsReal a) (hb : IsReal b) : IsReal (a + b) := by
  obtain ⟨p, rfl⟩ := ha; obtain ⟨q, rfl⟩ := hb; exact ⟨p + q, (EReal.coe_add p q).symm⟩

theorem IsReal.mul {a b : EReal} (ha : IsReal a) (hb : IsReal b) : IsReal (a * b) := by
  obtain ⟨p, rfl⟩ := ha; obtain ⟨q, rfl⟩ := hb; exact ⟨p * q, (EReal.coe_mul p q).symm⟩

theorem IsReal.sum {ι : Type*} (t : Finset ι) (f : ι → EReal) (h : ∀ i ∈ t, IsReal (f i)) : IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

/-! ## The law -/

/-- A nonnegative finite constant multiplies through a finite sum of extended reals. -/
theorem sum_mul_const {ι : Type*} (t : Finset ι) (f : ι → EReal) (c : EReal) (h0 : 0 ≤ c) (ht : c ≠ ⊤) :
    (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top h0 ht, ih]

/-- Over real scores S (at least one of them), with the maximum folded from ⊥: the weighted sum divided by the
    total weight is the sum weighted by the normalised weights, whatever the summands v are. -/
theorem softmax_law {n : ℕ} (hn : 0 < n) (S : Fin n → EReal) (hS : ∀ j, IsReal (S j)) (v : Fin n → EReal)
    (init : EReal) (hinit : init = ⊥) :
    Ideal.div (∑ j, Ideal.exp (S j - (Finset.univ : Finset (Fin n)).fold max init S) * v j)
        (∑ j, Ideal.exp (S j - (Finset.univ : Finset (Fin n)).fold max init S))
      = ∑ j, Ideal.div (Ideal.exp (S j - (Finset.univ : Finset (Fin n)).fold max init S))
          (∑ j', Ideal.exp (S j' - (Finset.univ : Finset (Fin n)).fold max init S)) * v j := by
  subst hinit
  choose s hs using hS
  obtain rfl : S = fun j => ((s j : ℝ) : EReal) := funext hs
  haveI : Nonempty (Fin n) := ⟨⟨0, hn⟩⟩
  have H : (Finset.univ : Finset (Fin n)).Nonempty := Finset.univ_nonempty
  rw [Cert.LibOnlineSoftmax.fold_max_coe Finset.univ H s]
  have hexp : ∀ j, Ideal.exp (((s j : ℝ) : EReal) - ((Finset.univ.sup' H s : ℝ) : EReal))
      = ((Real.exp (s j - Finset.univ.sup' H s) : ℝ) : EReal) := fun j => by
    rw [← EReal.coe_sub, Ideal.exp_coe]
  simp only [hexp]
  rw [Cert.LibOnlineSoftmax.coe_sum Finset.univ (fun j => Real.exp (s j - Finset.univ.sup' H s))]
  have hl : 0 < ∑ j, Real.exp (s j - Finset.univ.sup' H s) := Finset.sum_pos (fun j _ => Real.exp_pos _) H
  simp only [Ideal.div_coe hl.ne']
  rw [sum_mul_const _ _ _ (EReal.coe_nonneg.2 (by positivity)) (EReal.coe_ne_top _)]
  exact Finset.sum_congr rfl fun j _ => mul_right_comm _ _ _

end Cert.LibSoftmaxLaw

end
-- ==== Proof.AttnLaw.lean ====
/-
  Cross attention as ONE function of the eight arguments, index by index over the extended reals, in the two
  arrangements the two programs compute, and the law that joins them.

  For a batch b, a query row r and a key row j, the score is s(r, j) = ∑ₑ q(r, e) · k(j, e) of the projected
  rows q = x·Wqᵀ + bq and k = y·Wkᵀ + bk; the weight is w(r, j) = exp (s(r, j) − max_j s(r, j)). One
  arrangement divides the weighted sum of the projected values by the row's total weight,
  (∑ⱼ w(r, j) · v(j, d)) / (∑ⱼ w(r, j)); the other normalises each weight first, ∑ⱼ (w(r, j) / ∑ⱼ' w(r, j')) · v(j, d).
  On the extended reals the two agree as soon as the total weight is a positive real: division by a positive
  real is multiplication by a nonnegative real constant, which distributes over any finite sum of extended
  reals. The total weight is a positive real when the scores are real, and the scores are real when the
  entries of x, y, Wq, bq, Wk, bk are; nothing is asked of Wv, bv.
-/
import proofs.«109580_g747324309857_cont_9to1_m_273_28_alg».proof.Proof.LibSoftmaxLaw
import Idealize.ShloMosaic.Lib.ValueIdx

noncomputable section

open scoped BigOperators

namespace Cert.Attn

open Idealize.ShloMosaic Idealize.ShloMosaic.ValueIdx
open Cert.LibSoftmaxLaw

/-! ## The specification -/

abbrev T3 : Shape := ⟨3, ![4, 2048, 768]⟩
abbrev W2 : Shape := ⟨2, ![768, 768]⟩
abbrev B1 : Shape := ⟨1, ![768]⟩

/-- Row (b, r) of `inp` times the transpose of `w`, plus the bias: entry e. -/
def proj (inp : T3.Idx → EReal) (w : W2.Idx → EReal) (bias : B1.Idx → EReal) (b : Fin 4) (r : Fin 2048) (e : Fin 768) : EReal :=
  (∑ d : Fin 768, inp (ix3 b r d) * w (ix2 e d)) + bias (ix1 e)

/-- The score of query row r against key row j in batch b. -/
def score (x y : T3.Idx → EReal) (wq : W2.Idx → EReal) (bq : B1.Idx → EReal) (wk : W2.Idx → EReal) (bk : B1.Idx → EReal)
    (b : Fin 4) (r j : Fin 2048) : EReal :=
  ∑ e : Fin 768, proj x wq bq b r e * proj y wk bk b j e

/-- The value the row maxima are folded from: the f32 word of −∞, kept as the literal. -/
def negInf : EReal := Ideal.ofBits .f32 0xFF800000#32

theorem negInf_eq : negInf = ⊥ := by simp [negInf, Ideal.ofBits, Ideal.ieee]

/-- The largest score of query row r. -/
def top (x y : T3.Idx → EReal) (wq : W2.Idx → EReal) (bq : B1.Idx → EReal) (wk : W2.Idx → EReal) (bk : B1.Idx → EReal)
    (b : Fin 4) (r : Fin 2048) : EReal :=
  (Finset.univ : Finset (Fin 2048)).fold max negInf (fun j => score x y wq bq wk bk b r j)

/-- The unnormalised weight of key row j for query row r. -/
def wgt (x y : T3.Idx → EReal) (wq : W2.Idx → EReal) (bq : B1.Idx → EReal) (wk : W2.Idx → EReal) (bk : B1.Idx → EReal)
    (b : Fin 4) (r j : Fin 2048) : EReal :=
  Ideal.exp (score x y wq bq wk bk b r j - top x y wq bq wk bk b r)

/-- The weighted sum of the projected values divided by the total weight, plus the residual. -/
def attnK (x y : T3.Idx → EReal) (wq : W2.Idx → EReal) (bq : B1.Idx → EReal) (wk : W2.Idx → EReal) (bk : B1.Idx → EReal)
    (wv : W2.Idx → EReal) (bv : B1.Idx → EReal) (b : Fin 4) (r : Fin 2048) (d : Fin 768) : EReal :=
  Ideal.div (∑ j : Fin 2048, wgt x y wq bq wk bk b r j * proj y wv bv b j d) (∑ j : Fin 2048, wgt x y wq bq wk bk b r j)
    + x (ix3 b r d)

/-- The sum of the projected values weighted by the normalised weights, plus the residual. -/
def attnR (x y : T3.Idx → EReal) (wq : W2.Idx → EReal) (bq : B1.Idx → EReal) (wk : W2.Idx → EReal) (bk : B1.Idx → EReal)
    (wv : W2.Idx → EReal) (bv : B1.Idx → EReal) (b : Fin 4) (r : Fin 2048) (d : Fin 768) : EReal :=
  (∑ j : Fin 2048, Ideal.div (wgt x y wq bq wk bk b r j) (∑ j' : Fin 2048, wgt x y wq bq wk bk b r j') * proj y wv bv b j d)
    + x (ix3 b r d)

theorem proj_real (inp : T3.Idx → EReal) (w : W2.Idx → EReal) (bias : B1.Idx → EReal)
    (hi : ∀ i, IsReal (inp i)) (hw : ∀ i, IsReal (w i)) (hb : ∀ i, IsReal (bias i)) (b : Fin 4) (r : Fin 2048) (e : Fin 768) :
    IsReal (proj inp w bias b r e) :=
  (IsReal.sum _ _ fun d _ => (hi _).mul (hw _)).add (hb _)

theorem score_real (x y : T3.Idx → EReal) (wq : W2.Idx → EReal) (bq : B1.Idx → EReal) (wk : W2.Idx → EReal) (bk : B1.Idx → EReal)
    (hx : ∀ i, IsReal (x i)) (hy : ∀ i, IsReal (y i)) (hwq : ∀ i, IsReal (wq i)) (hbq : ∀ i, IsReal (bq i))
    (hwk : ∀ i, IsReal (wk i)) (hbk : ∀ i, IsReal (bk i)) (b : Fin 4) (r j : Fin 2048) :
    IsReal (score x y wq bq wk bk b r j) :=
  IsReal.sum _ _ fun e _ => (proj_real x wq bq hx hwq hbq b r e).mul (proj_real y wk bk hy hwk hbk b j e)

/-- The two arrangements agree when the entries of x, y, Wq, bq, Wk, bk are real numbers. -/
theorem attnK_eq_attnR (x y : T3.Idx → EReal) (wq : W2.Idx → EReal) (bq : B1.Idx → EReal) (wk : W2.Idx → EReal) (bk : B1.Idx → EReal)
    (wv : W2.Idx → EReal) (bv : B1.Idx → EReal)
    (hx : ∀ i, IsReal (x i)) (hy : ∀ i, IsReal (y i)) (hwq : ∀ i, IsReal (wq i)) (hbq : ∀ i, IsReal (bq i))
    (hwk : ∀ i, IsReal (wk i)) (hbk : ∀ i, IsReal (bk i)) (b : Fin 4) (r : Fin 2048) (d : Fin 768) :
    attnK x y wq bq wk bk wv bv b r d = attnR x y wq bq wk bk wv bv b r d := by
  unfold attnK attnR
  refine congrArg (· + x (ix3 b r d)) ?_
  exact softmax_law (by decide) (fun j => score x y wq bq wk bk b r j)
    (fun j => score_real x y wq bq wk bk hx hy hwq hbq hwk hbk b r j) (fun j => proj y wv bv b j d) negInf negInf_eq

end Cert.Attn

end
-- ==== Proof.AttnRows.lean ====
/-
  The attention of ONE query row as a function of that row of x, the transposed query weights and bias, and the
  projected keys and values of the batch; the body's two half-block stores are that function, row by row; and it
  is the specification's first arrangement once the weights are read through the transpose, the bias through
  its row, and the keys and values as the batch's projections.
-/
import proofs.«109580_g747324309857_cont_9to1_m_273_28_alg».proof.Proof.AttnBlocks
import proofs.«109580_g747324309857_cont_9to1_m_273_28_alg».proof.Proof.AttnLaw

noncomputable section

open scoped BigOperators

namespace Cert.AttnRows

open Idealize.ShloMosaic Idealize.ShloMosaic.ValueIdx Idealize.SL.Sem
open Cert.KernelIdeal Cert.KernelIdeal.Gen Cert.AttnBlocks

/-- One query row `xr` attended against the keys `kk` and values `vv`: entry d of the result. -/
def rowAtt (xr : Fin 768 → EReal) (wqT : S768x768.Idx → EReal) (bq2 : S1x768.Idx → EReal) (kk vv : S2048x768.Idx → EReal)
    (d : Fin 768) : EReal :=
  Ideal.div
      (∑ j : Fin 2048, Ideal.exp ((∑ e : Fin 768, ((∑ d' : Fin 768, xr d' * wqT (ix2 d' e)) + bq2 (ix2 (0 : Fin 1) e)) * kk (ix2 j e))
          - (Finset.univ : Finset (Fin 2048)).fold max (Ideal.ofBits .f32 0xFF800000#32)
              (fun k => ∑ e : Fin 768, ((∑ d' : Fin 768, xr d' * wqT (ix2 d' e)) + bq2 (ix2 (0 : Fin 1) e)) * kk (ix2 k e))) * vv (ix2 j d))
      (∑ j : Fin 2048, Ideal.exp ((∑ e : Fin 768, ((∑ d' : Fin 768, xr d' * wqT (ix2 d' e)) + bq2 (ix2 (0 : Fin 1) e)) * kk (ix2 j e))
          - (Finset.univ : Finset (Fin 2048)).fold max (Ideal.ofBits .f32 0xFF800000#32)
              (fun k => ∑ e : Fin 768, ((∑ d' : Fin 768, xr d' * wqT (ix2 d' e)) + bq2 (ix2 (0 : Fin 1) e)) * kk (ix2 k e))))
    + xr d

/-- 512 rows `xs`, with their own projected queries, store the row-wise function of each row. -/
theorem pay4_rows (xs : FVec Ideal S512x768 .f32) (wq : FVec Ideal S768x768 .f32) (bq : FVec Ideal S1x768 .f32) (kk vv : FVec Ideal S2048x768 .f32)
    (u : Fin 1) (r : Fin 512) (d : Fin 768) :
    k0_pay4 xs (qrows xs wq bq) kk vv (ix3 u r d) = rowAtt (fun d' => xs (ix2 r d')) wq bq kk vv d := by
  rw [pay4_apply]
  unfold weightAt rowAtt
  simp only [qrows_apply]

/-- The first half-block's store, at local row r: the row-wise function of row r of the block. -/
theorem firstHalf_apply (x : FVec Ideal S1x1024x768 .f32) (wq : FVec Ideal S768x768 .f32) (bq : FVec Ideal S1x768 .f32) (kk vv : FVec Ideal S2048x768 .f32)
    (u : Fin 1) (r : Fin 512) (d : Fin 768) :
    k0_pay6 (F := Ideal) x wq bq kk vv (ix3 u r d)
      = rowAtt (fun d' => x (ix3 (0 : Fin 1) (⟨r.val, by omega⟩ : Fin 1024) d')) wq bq kk vv d := by
  rw [pay6_eq, pay4_rows]
  simp only [half0_apply]

/-- The second half-block's store, at local row r: the row-wise function of row 512 + r of the block. -/
theorem secondHalf_apply (x : FVec Ideal S1x1024x768 .f32) (wq : FVec Ideal S768x768 .f32) (bq : FVec Ideal S1x768 .f32) (kk vv : FVec Ideal S2048x768 .f32)
    (u : Fin 1) (r : Fin 512) (d : Fin 768) :
    k0_pay4 (F := Ideal) (k0_pay7 x) (k0_pay8 x wq bq) kk vv (ix3 u r d)
      = rowAtt (fun d' => x (ix3 (0 : Fin 1) (⟨512 + r.val, by omega⟩ : Fin 1024) d')) wq bq kk vv d := by
  rw [pay8_eq, pay4_rows]
  simp only [half1_apply]

open Cert.Attn in
/-- The row-wise function is the specification's first arrangement at (b, row), when the query weights are read
    through the transpose, the bias through its one row, and the keys and values are the batch's projections. -/
theorem rowAtt_eq_attnK (X Y : T3.Idx → EReal) (Wq : W2.Idx → EReal) (Bq : B1.Idx → EReal) (Wk : W2.Idx → EReal) (Bk : B1.Idx → EReal)
    (Wv : W2.Idx → EReal) (Bv : B1.Idx → EReal)
    (wqT : S768x768.Idx → EReal) (bq2 : S1x768.Idx → EReal) (kk vv : S2048x768.Idx → EReal) (b : Fin 4) (row : Fin 2048)
    (hwq : ∀ (d' e : Fin 768), wqT (ix2 d' e) = Wq (ix2 e d')) (hbq : ∀ e : Fin 768, bq2 (ix2 (0 : Fin 1) e) = Bq (ix1 e))
    (hk : ∀ (j : Fin 2048) (e : Fin 768), kk (ix2 j e) = proj Y Wk Bk b j e)
    (hv : ∀ (j : Fin 2048) (d : Fin 768), vv (ix2 j d) = proj Y Wv Bv b j d) (d : Fin 768) :
    rowAtt (fun d' => X (ix3 b row d')) wqT bq2 kk vv d = attnK X Y Wq Bq Wk Bk Wv Bv b row d := by
  unfold rowAtt
  simp only [hwq, hbq, hk, hv]
  rfl

end Cert.AttnRows

end
-- ==== Proof.AttnHeld.lean ====
/-
  The result array of the fused attention kernel as one function of the eight argument arrays.

  By induction over the grid points: after point t = 3·b + i the two scratch buffers hold the projected keys and
  values of batch b (a projection step stores them; an attention step leaves them as the point before did, and
  the batch has not changed); after an attention step (i = 1, 2) the output window's buffer holds, at block row
  r, the attention of query row 1024·(i − 1) + r of batch b. The window is written back exactly at the attention
  steps, the block of point t is rows [1024·(i − 1), 1024·i) of batch b, and these eight blocks fill the array:
  so the array ends holding, at (b, row, d), the weighted sum of the projected values over the total weight,
  plus the residual.
-/
import proofs.«109580_g747324309857_cont_9to1_m_273_28_alg».proof.Proof.KI.Body
import proofs.«109580_g747324309857_cont_9to1_m_273_28_alg».proof.Proof.AttnReads
import proofs.«109580_g747324309857_cont_9to1_m_273_28_alg».proof.Proof.AttnPieces
import proofs.«109580_g747324309857_cont_9to1_m_273_28_alg».proof.Proof.AttnRows
import Idealize.ShloMosaic.Lib.Pipeline.Value

set_option maxRecDepth 16384

noncomputable section

open scoped BigOperators

namespace Cert.AttnHeld

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen Cert.KernelIdeal.Body
open Cert.Attn (proj attnK)
open Cert.AttnReads Cert.AttnPieces Cert.AttnBlocks Cert.AttnRows

variable (m : (ℓ : Loc nD τ sig) → Buf (Elt Ideal) ℓ) (ρ : Dev nD → PrngReg)

/-! ## The argument arrays -/

abbrev aX (c : Dev nD) : S4x2048x768.Idx → EReal := m ((c : Thread nD τ).loc main_arg0)
abbrev aY (c : Dev nD) : S4x2048x768.Idx → EReal := m ((c : Thread nD τ).loc main_arg1)
abbrev aWq (c : Dev nD) : S768x768.Idx → EReal := m ((c : Thread nD τ).loc main_arg2)
abbrev aBq (c : Dev nD) : S768.Idx → EReal := m ((c : Thread nD τ).loc main_arg3)
abbrev aWk (c : Dev nD) : S768x768.Idx → EReal := m ((c : Thread nD τ).loc main_arg4)
abbrev aBk (c : Dev nD) : S768.Idx → EReal := m ((c : Thread nD τ).loc main_arg5)
abbrev aWv (c : Dev nD) : S768x768.Idx → EReal := m ((c : Thread nD τ).loc main_arg6)
abbrev aBv (c : Dev nD) : S768.Idx → EReal := m ((c : Thread nD τ).loc main_arg7)

/-! ## The scratch buffers -/

/-- After a projection step the keys' scratch buffer holds the projected keys of the point's batch, -/
theorem projLeaves_K (c : Dev nD) (t : Fin cfg0.N) (h : t.val % 3 = 0) (b : Fin 4) (hb : b.val = t.val / 3) (j : Fin 2048) (e : Fin 768) :
    (projLeaves m c t h).2.1 (ix2 j e) = proj (aY m c) (aWk m c) (aBk m c) b j e := by
  unfold projLeaves
  dsimp only
  rw [View.read_writes_eq_canon _ _ _ (coverK c _ _ _ _ _ _ _ _ _ _ _ _ _ _ _ _ _ _ _ _ _ _ _ _ _ _ _ _ _ _)]
  rw [projRun_K, pay2_apply (iblk m c 1 t) (iblk m c 4 t) (iblk m c 5 t) j e]
  unfold Cert.Attn.proj
  exact congrArg₂ (· + ·) (Finset.sum_congr rfl fun d _ => congrArg₂ (· * ·) (blkY_apply m c t 0 j d b hb) (blkWk_apply m c t d e))
    (blkBk_apply m c t 0 e)

/-- and the values' scratch buffer the projected values. -/
theorem projLeaves_V (c : Dev nD) (t : Fin cfg0.N) (h : t.val % 3 = 0) (b : Fin 4) (hb : b.val = t.val / 3) (j : Fin 2048) (d : Fin 768) :
    (projLeaves m c t h).2.2 (ix2 j d) = proj (aY m c) (aWv m c) (aBv m c) b j d := by
  unfold projLeaves
  dsimp only
  rw [View.read_writes_eq_canon _ _ _ (coverV c _ _ _ _ _ _ _ _ _ _ _ _ _ _ _ _ _ _ _ _ _ _ _ _ _ _ _ _ _ _)]
  rw [projRun_V, pay3_apply (iblk m c 1 t) (iblk m c 6 t) (iblk m c 7 t) j d]
  unfold Cert.Attn.proj
  exact congrArg₂ (· + ·) (Finset.sum_congr rfl fun d' _ => congrArg₂ (· * ·) (blkY_apply m c t 0 j d' b hb) (blkWv_apply m c t d' d))
    (blkBv_apply m c t 0 d)

/-- After every point the scratch buffers hold the projected keys and values of the point's batch. -/
theorem held_KV (c : Dev nD) : ∀ (n : ℕ) (h : n < cfg0.N) (b : Fin 4) (hb : b.val = n / 3),
    (∀ (j : Fin 2048) (e : Fin 768), (heldAt m c n h).2.1 (ix2 j e) = proj (aY m c) (aWk m c) (aBk m c) b j e)
    ∧ (∀ (j : Fin 2048) (d : Fin 768), (heldAt m c n h).2.2 (ix2 j d) = proj (aY m c) (aWv m c) (aBv m c) b j d)
  | 0, h, b, hb => by
    rw [show heldAt m c 0 h = projLeaves m c ⟨0, h⟩ (Nat.zero_mod _) from rfl]
    exact ⟨fun j e => projLeaves_K m c ⟨0, h⟩ _ b hb j e, fun j d => projLeaves_V m c ⟨0, h⟩ _ b hb j d⟩
  | n + 1, h, b, hb => by
    by_cases h3 : (n + 1) % 3 = 0
    · rw [heldAt_proj m c ⟨n + 1, h⟩ h3]
      exact ⟨fun j e => projLeaves_K m c ⟨n + 1, h⟩ h3 b hb j e, fun j d => projLeaves_V m c ⟨n + 1, h⟩ h3 b hb j d⟩
    · rw [heldAt_att m c ⟨n + 1, h⟩ h3]
      exact held_KV c n (Nat.lt_of_succ_lt h) b (by omega)

/-! ## The output window's buffer -/

/-- After an attention step the output buffer holds, at block row r, the attention of the query row it stands for. -/
theorem held_out (c : Dev nD) (t : Fin cfg0.N) (h3 : ¬ t.val % 3 = 0) (u : Fin 1) (r : Fin 1024) (d : Fin 768) (b : Fin 4) (row : Fin 2048)
    (hb : b.val = t.val / 3) (hrow : row.val = (t.val % 3 - 1) * 1024 + r.val) :
    (heldAt m c t.val t.isLt).1 (ix3 u r d) = attnK (aX m c) (aY m c) (aWq m c) (aBq m c) (aWk m c) (aBk m c) (aWv m c) (aBv m c) b row d := by
  have hN : cfg0.N = 12 := N_0
  have ht := t.isLt
  rw [heldAt_att m c t h3]
  obtain ⟨hK, hV⟩ := held_KV m c (t.val - 1) (by omega) b (by omega)
  generalize (heldAt m c (t.val - 1) _).2 = kv at hK hV ⊢
  unfold attLeaves
  dsimp only
  rw [View.read_writes_eq_canon _ _ _ (coverO c _ _ _ _ _ _ _ _ _ _ _ _ _ _ _ _ _ _ _ _ _ _ _ _ _ _ _ _ _ _)]
  by_cases hr : r.val < 512
  · have er : r = (⟨(⟨r.val, hr⟩ : Fin 512).val, by omega⟩ : Fin 1024) := rfl
    rw [er, attRun_lo, firstHalf_apply (iblk m c 0 t) (iblk m c 2 t) (iblk m c 3 t) kv.1 kv.2 u ⟨r.val, hr⟩ d]
    rw [show (fun d' => (iblk m c 0 t : Vec Ideal S1x1024x768 .f32) (ix3 (0 : Fin 1) (⟨(⟨r.val, hr⟩ : Fin 512).val, by omega⟩ : Fin 1024) d'))
        = fun d' => aX m c (ix3 b row d') from funext fun d' => blkX_apply m c t 0 _ d' b row hb hrow]
    exact rowAtt_eq_attnK _ _ _ _ _ _ _ _ _ _ _ _ b row (fun d' e => blkWq_apply m c t d' e) (fun e => blkBq_apply m c t 0 e) hK hV d
  · have hr1 := r.isLt
    have er : r = (⟨512 + (⟨r.val - 512, by omega⟩ : Fin 512).val, by omega⟩ : Fin 1024) :=
      Fin.ext (by show r.val = 512 + (r.val - 512); omega)
    have hrow' : row.val = (t.val % 3 - 1) * 1024 + (512 + (r.val - 512)) := by omega
    rw [er, attRun_hi, secondHalf_apply (iblk m c 0 t) (iblk m c 2 t) (iblk m c 3 t) kv.1 kv.2 u ⟨r.val - 512, by omega⟩ d]
    rw [show (fun d' => (iblk m c 0 t : Vec Ideal S1x1024x768 .f32) (ix3 (0 : Fin 1) (⟨512 + (⟨r.val - 512, by omega⟩ : Fin 512).val, by omega⟩ : Fin 1024) d'))
        = fun d' => aX m c (ix3 b row d') from funext fun d' => blkX_apply m c t 0 _ d' b row hb hrow']
    exact rowAtt_eq_attnK _ _ _ _ _ _ _ _ _ _ _ _ b row (fun d' e => blkWq_apply m c t d' e) (fun e => blkBq_apply m c t 0 e) hK hV d

/-! ## From the blocks to the array -/

/-- The result array, index by index. -/
def result (c : Dev nD) : S4x2048x768.Idx → EReal := fun i => attnK (aX m c) (aY m c) (aWq m c) (aBq m c) (aWk m c) (aBk m c) (aWv m c) (aBv m c) (i 0) (i 1) (i 2)

/-- The output window is written back exactly at the attention steps. -/
theorem flush_iff : ∀ t : Fin cfg0.N, (cfg0.win 8).flush t = true ↔ ¬ t.val % 3 = 0 :=
  (by decide +kernel : ∀ t : Fin grid0.N, win0_8.flush t = true ↔ ¬ t.val % 3 = 0)

/-- What an attention step writes back is its block of the result. -/
theorem flushed_eq (c : Dev nD) (t : Fin cfg0.N) (hf : (cfg0.win 8).flush t = true) :
    (dats m 0 c).flushed 8 t = ((cfg0.win 8).blk t).view.read (Elt Ideal) (result m c) := by
  have hN : cfg0.N = 12 := N_0
  have ht := t.isLt
  have h3 : ¬ t.val % 3 = 0 := (flush_iff t).mp hf
  obtain ⟨e0, e1, e2⟩ := idx_o t
  show (cfg0.win 8).cut (grid0.coords t) ((dats m 0 c).after 8 t) = _
  rw [after8]
  funext y
  obtain ⟨u, r, d, rfl⟩ : ∃ (u : Fin 1) (r : Fin 1024) (d : Fin 768), y = ix3 u r d := ⟨y 0, y 1, y 2, eq_ix3 y⟩
  have hu : u.val = 0 := by omega
  have hr := r.isLt
  have he : ((cfg0.win 8).blk t).view.emb (ix3 u r d)
      = (ix3 (⟨t.val / 3, by omega⟩ : Fin 4) (⟨(t.val % 3 - 1) * 1024 + r.val, by omega⟩ : Fin 2048) d : S4x2048x768.Idx) :=
    funext fun a => Fin.ext (by
      match a with
      | ⟨0, _⟩ => show win0_8.index t (0 : Fin 3) * 1 + 1 * u.val = t.val / 3; omega
      | ⟨1, _⟩ => show win0_8.index t (1 : Fin 3) * 1024 + 1 * r.val = (t.val % 3 - 1) * 1024 + r.val; omega
      | ⟨2, _⟩ => show win0_8.index t (2 : Fin 3) * 768 + 1 * d.val = d.val; omega)
  show (heldAt m c t.val t.isLt).1 (ix3 u r d) = result m c (((cfg0.win 8).blk t).view.emb (ix3 u r d))
  rw [he, held_out m c t h3 u r d ⟨t.val / 3, by omega⟩ ⟨(t.val % 3 - 1) * 1024 + r.val, by omega⟩ rfl rfl]
  rfl

/-- An index is in point t's block iff each coordinate is in the block's range on its axis. -/
theorem mem_blk (t : Fin cfg0.N) (i : S4x2048x768.Idx) :
    i ∈ ((cfg0.win 8).blk t).view.set ↔ ∀ a : Fin 3, win0_8.index t a * S1x1024x768.size a ≤ (i a).val
      ∧ (i a).val < win0_8.index t a * S1x1024x768.size a + S1x1024x768.size a := by
  show i ∈ ((View.whole main_v6).slice (win0_8.rect t)).set ↔ _
  rw [View.set_slice_whole, Rect.mem_set_unit]
  exact Iff.rfl

/-- The eight written-back blocks fill the array: row `row` of batch b is in the block of point 3·b + row / 1024 + 1. -/
theorem cover (i : S4x2048x768.Idx) : ∃ t : Fin cfg0.N, (cfg0.win 8).flush t = true ∧ i ∈ ((cfg0.win 8).blk t).view.set := by
  have hN : cfg0.N = 12 := N_0
  have h0 : (i 0).val < 4 := (i 0).isLt
  have h1 : (i 1).val < 2048 := (i 1).isLt
  have h2 : (i 2).val < 768 := (i 2).isLt
  obtain ⟨t, ht⟩ : ∃ t : Fin cfg0.N, t.val = 3 * (i 0).val + (i 1).val / 1024 + 1 :=
    ⟨⟨3 * (i 0).val + (i 1).val / 1024 + 1, by omega⟩, rfl⟩
  obtain ⟨e0, e1, e2⟩ := idx_o t
  refine ⟨t, (flush_iff t).mpr (by omega), ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 768 ≤ (i 2).val ∧ (i 2).val < win0_8.index t (2 : Fin 3) * 768 + 768; omega

/-- The result array after the run. -/
theorem final (c : Dev nD) : (dats m 0 c).arrAt 8 cfg0.N = result m c :=
  (dats m 0 c).arrAt_eq_of_cover 8 (result m c) (flushed_eq m c) (cover)

/-- The run, read: the result array at its function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1 8).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.AttnHeld

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.AttnRef.lean ====
/-
  The reference's result, read at the coordinates (b, r, d), is the specification's function: the sum over the key
  rows j of the normalised weight of j for the query row r times the projected value of row j at d, plus the
  residual. Each operation of the reference is read at explicit coordinates, bottom-up: the three projections, the
  scores, the row maxima, the weights, the row totals, the normalised weights, the weighted sum, the residual sum.
-/
import proofs.«109580_g747324309857_cont_9to1_m_273_28_alg».proof.Proof.Gen.ReferenceIdeal.Read
import proofs.«109580_g747324309857_cont_9to1_m_273_28_alg».proof.Proof.LibLastAxisMax
import proofs.«109580_g747324309857_cont_9to1_m_273_28_alg».proof.Proof.AttnLaw
import Idealize.ShloMosaic.Lib.ValueIdx
import Idealize.ShloMosaic.PureOps.Ideal
import Idealize.ShloMosaic.PureOps.Ideal.Laws

noncomputable section

open scoped BigOperators

namespace Cert.AttnRef

open Idealize.ShloMosaic Idealize.ShloMosaic.ValueIdx Cert.ReferenceIdeal

/-- The contents of a `[4, 2048, 768]` argument at the ideal values. -/
abbrev T3c : Type := (⟨S4x2048x768, .f32⟩ : BufTy).Contents (Elt Ideal)
/-- The contents of a `[768, 768]` argument at the ideal values. -/
abbrev W2c : Type := (⟨S768x768, .f32⟩ : BufTy).Contents (Elt Ideal)
/-- The contents of a `[768]` argument at the ideal values. -/
abbrev B1c : Type := (⟨S768, .f32⟩ : BufTy).Contents (Elt Ideal)

/-! ## Composed index functions at coordinates -/

theorem lidx_v0 (b : Fin 4) (r : Fin 2048) (e k : Fin 768) : Read.lidx_main_v0 (ix3 b r e) k = ix3 b r k :=
  funext fun a => Fin.ext (by match a with | ⟨0, _⟩ => rfl | ⟨1, _⟩ => rfl | ⟨2, _⟩ => rfl)
theorem ridx_v0 (b : Fin 4) (r : Fin 2048) (e k : Fin 768) : Read.ridx_main_v0 (ix3 b r e) k = ix2 e k :=
  funext fun a => Fin.ext (by match a with | ⟨0, _⟩ => rfl | ⟨1, _⟩ => rfl)
theorem idx_v1v2 (b : Fin 4) (r : Fin 2048) (e : Fin 768) : Read.idx_main_v1 (Read.idx_main_v2 (ix3 b r e)) = ix1 e :=
  funext fun a => Fin.ext (by match a with | ⟨0, _⟩ => rfl)

theorem lidx_v4 (b : Fin 4) (r : Fin 2048) (e k : Fin 768) : Read.lidx_main_v4 (ix3 b r e) k = ix3 b r k :=
  funext fun a => Fin.ext (by match a with | ⟨0, _⟩ => rfl | ⟨1, _⟩ => rfl | ⟨2, _⟩ => rfl)
theorem ridx_v4 (b : Fin 4) (r : Fin 2048) (e k : Fin 768) : Read.ridx_main_v4 (ix3 b r e) k = ix2 e k :=
  funext fun a => Fin.ext (by match a with | ⟨0, _⟩ => rfl | ⟨1, _⟩ => rfl)
theorem idx_v5v6 (b : Fin 4) (r : Fin 2048) (e : Fin 768) : Read.idx_main_v5 (Read.idx_main_v6 (ix3 b r e)) = ix1 e :=
  funext fun a => Fin.ext (by match a with | ⟨0, _⟩ => rfl)

theorem lidx_v8 (b : Fin 4) (r : Fin 2048) (e k : Fin 768) : Read.lidx_main_v8 (ix3 b r e) k = ix3 b r k :=
  funext fun a => Fin.ext (by match a with | ⟨0, _⟩ => rfl | ⟨1, _⟩ => rfl | ⟨2, _⟩ => rfl)
theorem ridx_v8 (b : Fin 4) (r : Fin 2048) (e k : Fin 768) : Read.ridx_main_v8 (ix3 b r e) k = ix2 e k :=
  funext fun a => Fin.ext (by match a with | ⟨0, _⟩ => rfl | ⟨1, _⟩ => rfl)
theorem idx_v9v10 (b : Fin 4) (r : Fin 2048) (e : Fin 768) : Read.idx_main_v9 (Read.idx_main_v10 (ix3 b r e)) = ix1 e :=
  funext fun a => Fin.ext (by match a with | ⟨0, _⟩ => rfl)

theorem lidx_v12 (b : Fin 4) (r j : Fin 2048) (k : Fin 768) : Read.lidx_main_v12 (ix3 b r j) k = ix3 b r k :=
  funext fun a => Fin.ext (by match a with | ⟨0, _⟩ => rfl | ⟨1, _⟩ => rfl | ⟨2, _⟩ => rfl)
theorem ridx_v12 (b : Fin 4) (r j : Fin 2048) (k : Fin 768) : Read.ridx_main_v12 (ix3 b r j) k = ix3 b j k :=
  funext fun a => Fin.ext (by match a with | ⟨0, _⟩ => rfl | ⟨1, _⟩ => rfl | ⟨2, _⟩ => rfl)

theorem idx_v16v17 (b : Fin 4) (r j : Fin 2048) : Read.idx_main_v16 (Read.idx_main_v17 (ix3 b r j)) = ix2 b r :=
  funext fun a => Fin.ext (by match a with | ⟨0, _⟩ => rfl | ⟨1, _⟩ => rfl)
theorem idx_v20 (b : Fin 4) (r k : Fin 2048) : Read.idx_main_v20 (ix2 b r) k = ix3 b r k :=
  funext fun a => Fin.ext (by match a with | ⟨0, _⟩ => rfl | ⟨1, _⟩ => rfl | ⟨2, _⟩ => rfl)
theorem idx_v21v22 (b : Fin 4) (r j : Fin 2048) : Read.idx_main_v21 (Read.idx_main_v22 (ix3 b r j)) = ix2 b r :=
  funext fun a => Fin.ext (by match a with | ⟨0, _⟩ => rfl | ⟨1, _⟩ => rfl)

theorem lidx_v24 (b : Fin 4) (r : Fin 2048) (d : Fin 768) (k : Fin 2048) : Read.lidx_main_v24 (ix3 b r d) k = ix3 b r k :=
  funext fun a => Fin.ext (by match a with | ⟨0, _⟩ => rfl | ⟨1, _⟩ => rfl | ⟨2, _⟩ => rfl)
theorem ridx_v24 (b : Fin 4) (r : Fin 2048) (d : Fin 768) (k : Fin 2048) : Read.ridx_main_v24 (ix3 b r d) k = ix3 b k d :=
  funext fun a => Fin.ext (by match a with | ⟨0, _⟩ => rfl | ⟨1, _⟩ => rfl | ⟨2, _⟩ => rfl)

/-! ## The projections -/

/-- The query projection at (b, r, e). -/
theorem v3_apply (x0 : T3c) (x2 : W2c) (x3 : B1c) (b : Fin 4) (r : Fin 2048) (e : Fin 768) :
    Read.val_main_v3 (F := Ideal) x0 x2 x3 (ix3 b r e) = Cert.Attn.proj x0 x2 x3 b r e := by
  rw [Read.val_main_v3_apply, Read.val_main_v0_apply, Read.val_main_v2_apply, Read.val_main_v1_apply, idx_v1v2,
    Ideal.addf_def]
  unfold Cert.Attn.proj
  refine congrArg (· + x3 (ix1 e)) (Finset.sum_congr rfl fun k _ => ?_)
  rw [lidx_v0, ridx_v0]

/-- The key projection at (b, r, e). -/
theorem v7_apply (x1 : T3c) (x4 : W2c) (x5 : B1c) (b : Fin 4) (r : Fin 2048) (e : Fin 768) :
    Read.val_main_v7 (F := Ideal) x1 x4 x5 (ix3 b r e) = Cert.Attn.proj x1 x4 x5 b r e := by
  rw [Read.val_main_v7_apply, Read.val_main_v4_apply, Read.val_main_v6_apply, Read.val_main_v5_apply, idx_v5v6,
    Ideal.addf_def]
  unfold Cert.Attn.proj
  refine congrArg (· + x5 (ix1 e)) (Finset.sum_congr rfl fun k _ => ?_)
  rw [lidx_v4, ridx_v4]

/-- The value projection at (b, r, e). -/
theorem v11_apply (x1 : T3c) (x6 : W2c) (x7 : B1c) (b : Fin 4) (r : Fin 2048) (e : Fin 768) :
    Read.val_main_v11 (F := Ideal) x1 x6 x7 (ix3 b r e) = Cert.Attn.proj x1 x6 x7 b r e := by
  rw [Read.val_main_v11_apply, Read.val_main_v8_apply, Read.val_main_v10_apply, Read.val_main_v9_apply, idx_v9v10,
    Ideal.addf_def]
  unfold Cert.Attn.proj
  refine congrArg (· + x7 (ix1 e)) (Finset.sum_congr rfl fun k _ => ?_)
  rw [lidx_v8, ridx_v8]

/-! ## Scores, row maxima, weights -/

/-- The score of query row r against key row j. -/
theorem v12_apply (x0 x1 : T3c) (x2 : W2c) (x3 : B1c) (x4 : W2c) (x5 : B1c) (b : Fin 4) (r j : Fin 2048) :
    Read.val_main_v12 (F := Ideal) x0 x1 x2 x3 x4 x5 (ix3 b r j) = Cert.Attn.score x0 x1 x2 x3 x4 x5 b r j := by
  rw [Read.val_main_v12_apply]
  unfold Cert.Attn.score
  refine Finset.sum_congr rfl fun k _ => ?_
  rw [lidx_v12, ridx_v12, v3_apply, v7_apply]

/-- The reduce by maximum over the key axis is the fold of `max` over the scores of the row. -/
theorem v13_apply (x0 x1 : T3c) (x2 : W2c) (x3 : B1c) (x4 : W2c) (x5 : B1c) (b : Fin 4) (r : Fin 2048) :
    Read.val_main_v13 (F := Ideal) x0 x1 x2 x3 x4 x5 (ix2 b r) = Cert.Attn.top x0 x1 x2 x3 x4 x5 b r := by
  unfold Read.val_main_v13 Cert.Attn.top
  refine (Cert.LibLastAxisMax.hostLastMax3_apply _ _ _ (by decide) _ b r).trans ?_
  exact congrArg (fun f => Finset.fold max Cert.Attn.negInf f (Finset.univ : Finset (Fin 2048)))
    (funext fun j => v12_apply x0 x1 x2 x3 x4 x5 b r j)

/-- The maximum with the broadcast initial value changes nothing: the fold already starts from it. -/
theorem v15_apply (x0 x1 : T3c) (x2 : W2c) (x3 : B1c) (x4 : W2c) (x5 : B1c) (b : Fin 4) (r : Fin 2048) :
    Read.val_main_v15 (F := Ideal) x0 x1 x2 x3 x4 x5 (ix2 b r) = Cert.Attn.top x0 x1 x2 x3 x4 x5 b r := by
  rw [Read.val_main_v15_apply, Read.val_main_v14_apply, Read.val_main_cst_0_apply, v13_apply, Ideal.maximumf_def]
  unfold Cert.Attn.top
  exact max_eq_right ((Finset.le_fold_max (b := Cert.Attn.negInf) _).2 (Or.inl le_rfl))

/-- The row maximum broadcast along the key axis. -/
theorem v17_apply (x0 x1 : T3c) (x2 : W2c) (x3 : B1c) (x4 : W2c) (x5 : B1c) (b : Fin 4) (r j : Fin 2048) :
    Read.val_main_v17 (F := Ideal) x0 x1 x2 x3 x4 x5 (ix3 b r j) = Cert.Attn.top x0 x1 x2 x3 x4 x5 b r := by
  rw [Read.val_main_v17_apply, Read.val_main_v16_apply, idx_v16v17, v15_apply]

/-- The unnormalised weight. -/
theorem v19_apply (x0 x1 : T3c) (x2 : W2c) (x3 : B1c) (x4 : W2c) (x5 : B1c) (b : Fin 4) (r j : Fin 2048) :
    Read.val_main_v19 (F := Ideal) x0 x1 x2 x3 x4 x5 (ix3 b r j) = Cert.Attn.wgt x0 x1 x2 x3 x4 x5 b r j := by
  unfold Cert.Attn.wgt
  rw [Read.val_main_v19_apply, Read.val_main_v18_apply, v12_apply, v17_apply, Ideal.subf_def, Ideal.hostUnary_exp_def]

/-! ## Row totals and normalised weights -/

/-- The row total: the sum starts from the zero word. -/
theorem v20_apply (x0 x1 : T3c) (x2 : W2c) (x3 : B1c) (x4 : W2c) (x5 : B1c) (b : Fin 4) (r : Fin 2048) :
    Read.val_main_v20 (F := Ideal) x0 x1 x2 x3 x4 x5 (ix2 b r) = ∑ j : Fin 2048, Cert.Attn.wgt x0 x1 x2 x3 x4 x5 b r j := by
  rw [Read.val_main_v20_apply, Read.val_main_cst_1_apply, Ideal.ofBits_def, Ideal.ofBits_zero_f32, zero_add]
  refine Finset.sum_congr rfl fun k _ => ?_
  rw [idx_v20, v19_apply]

/-- The row total broadcast along the key axis. -/
theorem v22_apply (x0 x1 : T3c) (x2 : W2c) (x3 : B1c) (x4 : W2c) (x5 : B1c) (b : Fin 4) (r j : Fin 2048) :
    Read.val_main_v22 (F := Ideal) x0 x1 x2 x3 x4 x5 (ix3 b r j) = ∑ j' : Fin 2048, Cert.Attn.wgt x0 x1 x2 x3 x4 x5 b r j' := by
  rw [Read.val_main_v22_apply, Read.val_main_v21_apply, idx_v21v22, v20_apply]

/-- The normalised weight. -/
theorem v23_apply (x0 x1 : T3c) (x2 : W2c) (x3 : B1c) (x4 : W2c) (x5 : B1c) (b : Fin 4) (r j : Fin 2048) :
    Read.val_main_v23 (F := Ideal) x0 x1 x2 x3 x4 x5 (ix3 b r j)
      = Ideal.div (Cert.Attn.wgt x0 x1 x2 x3 x4 x5 b r j) (∑ j' : Fin 2048, Cert.Attn.wgt x0 x1 x2 x3 x4 x5 b r j') := by
  rw [Read.val_main_v23_apply, v19_apply, v22_apply, Ideal.hostDivf_def]

/-! ## The weighted sum and the result -/

/-- The sum over the key rows of normalised weight times projected value. -/
theorem v24_apply (x0 x1 : T3c) (x2 : W2c) (x3 : B1c) (x4 : W2c) (x5 : B1c) (x6 : W2c) (x7 : B1c) (b : Fin 4) (r : Fin 2048) (d : Fin 768) :
    Read.val_main_v24 (F := Ideal) x0 x1 x2 x3 x4 x5 x6 x7 (ix3 b r d)
      = ∑ j : Fin 2048, Ideal.div (Cert.Attn.wgt x0 x1 x2 x3 x4 x5 b r j) (∑ j' : Fin 2048, Cert.Attn.wgt x0 x1 x2 x3 x4 x5 b r j')
          * Cert.Attn.proj x1 x6 x7 b j d := by
  rw [Read.val_main_v24_apply]
  refine Finset.sum_congr rfl fun k _ => ?_
  rw [lidx_v24, ridx_v24, v23_apply, v11_apply]

/-- The reference's result at (b, r, d) is the specification's function there. -/
theorem ref_apply (x0 x1 : (⟨S4x2048x768, .f32⟩ : BufTy).Contents (Elt Ideal)) (x2 : (⟨S768x768, .f32⟩ : BufTy).Contents (Elt Ideal))
    (x3 : (⟨S768, .f32⟩ : BufTy).Contents (Elt Ideal)) (x4 : (⟨S768x768, .f32⟩ : BufTy).Contents (Elt Ideal))
    (x5 : (⟨S768, .f32⟩ : BufTy).Contents (Elt Ideal)) (x6 : (⟨S768x768, .f32⟩ : BufTy).Contents (Elt Ideal))
    (x7 : (⟨S768, .f32⟩ : BufTy).Contents (Elt Ideal)) (b : Fin 4) (r : Fin 2048) (d : Fin 768) :
    Cert.ReferenceIdeal.Read.val_main_v25 (F := Ideal) x0 x1 x2 x3 x4 x5 x6 x7 (ix3 b r d)
      = Cert.Attn.attnR x0 x1 x2 x3 x4 x5 x6 x7 b r d := by
  unfold Cert.Attn.attnR
  rw [Read.val_main_v25_apply, v24_apply, Ideal.addf_def]

end Cert.AttnRef

end
-- ==== Proof.FiniteInputs.lean ====
/-
  From the finiteness precondition to real entries. The precondition evaluates, for each of the eight
  inputs `a`, the conjunction over all indices of `|a i| < +∞`, and conjoins the eight results. Read at the
  ideal (extended-real) interpretation, the result being true says that every entry of every input is neither
  `+∞` nor `-∞`, hence a real number.
-/
import proofs.«109580_g747324309857_cont_9to1_m_273_28_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx
open Cert.Pre_finite_inputs (S_ S4x2048x768 S768x768 S768)

/-- The scalar shape has exactly one index. -/
instance : Subsingleton S_.Idx := ⟨fun a b => funext fun d => d.elim0⟩

/-- The word `0x7F800000` denotes `+∞`. -/
theorem posInf_eq : Ideal.ofBits .f32 0x7F800000#32 = (⊤ : EReal) := by
  simp [Ideal.ofBits, Ideal.ieee]

/-- A one-bit word made from a Boolean is `1` only if the Boolean is true. -/
theorem ofBool_eq_one {b : Bool} (h : BitVec.ofBool b = 1#1) : b = true := by
  cases b
  · exact absurd h (by decide)
  · rfl

/-- An extended real whose absolute value `max x (-x)` is below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : max x (-x) < (⊤ : EReal) := by
    have h2 : Ideal.cmp .olt (max x (-x)) (Ideal.ofBits .f32 0x7F800000#32) = 1#1 := h
    rw [posInf_eq] at h2
    exact of_decide_eq_true (ofBool_eq_one h2)
  induction x using EReal.rec with
  | bot => simp at h'
  | coe r => exact ⟨r, rfl⟩
  | top => simp at h'

/-- One input: if the conjunction over all indices of `|a i| < +∞` is true, every entry of `a` is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ix0 = 1#1) (i : s.Idx) : ∃ r : ℝ, a i = (r : EReal) :=
  real_of_abs_lt (a i) (Host.reduce_andi_all _ _ hr hu ix0 e i)

/-- The precondition, true at the ideal interpretation, makes every entry of each of the eight inputs real. -/
theorem real_of_pre [Cert.Pre_finite_inputs.Facts]
    (a0 : FVec Ideal S4x2048x768 .f32) (a1 : FVec Ideal S4x2048x768 .f32) (a2 : FVec Ideal S768x768 .f32)
    (a3 : FVec Ideal S768 .f32) (a4 : FVec Ideal S768x768 .f32) (a5 : FVec Ideal S768 .f32)
    (a6 : FVec Ideal S768x768 .f32) (a7 : FVec Ideal S768 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h0 := congrFun h ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.FiniteInputs

end
-- ==== Proof.lean ====
/-
  Cross attention with a residual, fused in one kernel, against its plain reference.

  Both programs compute, for batch b, query row r and feature d,
      out(b, r, d) = (softmax over the keys of q(r)·k(j)) applied to v(·, d), plus x(b, r, d),
  with q = x·Wqᵀ + bq, k = y·Wkᵀ + bk, v = y·Wvᵀ + bv. The kernel walks a 4 × 3 grid: step 0 of a batch projects
  the batch's keys and values into two scratch buffers, steps 1 and 2 attend 1024 query rows each, in two halves of
  512, and divide the weighted sum of the values by the total weight of the row. The reference normalises the
  weights first and then sums. The two agree on finite inputs: the scores are then real numbers, the total weight
  of a row is a positive real, and division by a positive real distributes over a finite sum of extended reals.

  The frames: each kernel program runs to the end, faults nowhere and leaves its arguments as launched — the body
  is run once per case of its two branches (the projection step, the attention step), the two scratch buffers
  carried from point to point by the region's invariant; the reference's frame is its run with the result dropped.
  The idealization rewrote nothing, so what it preserves is trivially true. The algebraic claim: the kernel's
  result array, block by block, is the first arrangement of the specification at every index; the reference's
  result is the second; the precondition makes every entry of the inputs real, and the law joins the two.
-/
import proofs.«109580_g747324309857_cont_9to1_m_273_28_alg».proof.Defs
import proofs.«109580_g747324309857_cont_9to1_m_273_28_alg».proof.Proof.Gen.Kernel
import proofs.«109580_g747324309857_cont_9to1_m_273_28_alg».proof.Proof.Gen.KernelIdeal
import proofs.«109580_g747324309857_cont_9to1_m_273_28_alg».proof.Proof.Gen.ReferenceIdeal
import proofs.«109580_g747324309857_cont_9to1_m_273_28_alg».proof.Proof.Gen.Pre_finite_inputs
import proofs.«109580_g747324309857_cont_9to1_m_273_28_alg».proof.Proof.Gen.ReferenceIdeal.Run
import proofs.«109580_g747324309857_cont_9to1_m_273_28_alg».proof.Proof.Gen.ReferenceIdeal.Read
import proofs.«109580_g747324309857_cont_9to1_m_273_28_alg».proof.Proof.K.Body
import proofs.«109580_g747324309857_cont_9to1_m_273_28_alg».proof.Proof.KI.Body
import proofs.«109580_g747324309857_cont_9to1_m_273_28_alg».proof.Proof.AttnHeld
import proofs.«109580_g747324309857_cont_9to1_m_273_28_alg».proof.Proof.AttnRef
import proofs.«109580_g747324309857_cont_9to1_m_273_28_alg».proof.Proof.FiniteInputs
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result array ends at the weighted sums over the row totals, the reference's
    at the sums weighted by the normalised weights, of arguments that agree and are finite: one function. -/
theorem algebraic : Cert.algebraic_KernelIdeal_ReferenceIdeal := by
  intro m ρ m' ρ' hpre hagree
  refine ⟨fun c => Cert.AttnHeld.result m c, Cert.AttnHeld.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  obtain ⟨a0, a1, a2, a3, a4, a5, a6, a7⟩ := hagree c
  rw [a0, a1, a2, a3, a4, a5, a6, a7]
  obtain ⟨h0, h1, h2, h3, h4, h5, h6, h7⟩ := Cert.FiniteInputs.real_of_pre _ _ _ _ _ _ _ _ (hpre c)
  funext (i : Cert.ReferenceIdeal.S4x2048x768.Idx)
  obtain ⟨b, r, d, rfl⟩ : ∃ (b : Fin 4) (r : Fin 2048) (d : Fin 768), i = ix3 b r d := ⟨i 0, i 1, i 2, eq_ix3 i⟩
  rw [Cert.AttnRef.ref_apply]
  exact (Cert.Attn.attnK_eq_attnR _ _ _ _ _ _ _ _ h0 h1 h2 h3 h4 h5 b r d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
